-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S64x64 : Shape := ⟨2, ![64, 64]⟩
abbrev S1024x64 : Shape := ⟨2, ![1024, 64]⟩
abbrev S64 : Shape := ⟨1, ![64]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S1024x64 .f32) (main_arg5 : FVec F S64 .f32) (main_arg6 : FVec F S64 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S1024x64 .f32 := Host.absf main_arg4
  let main_cst_6 : FVec F S_ .f32 := constant S_ .f32 0x7F800000#32
  let main_v20 : FVec F S1024x64 .f32 := broadcastInDim S1024x64 ![] bcast_S_S1024x64 main_cst_6
  let main_v21 : IVec S1024x64 1 := cmpf .olt main_v19 main_v20
  let main_c_7 : IVec S_ 1 := constantI S_ 1 1#1
  let main_v22 : IVec S_ 1 := (fun x v => Host.reduce IntOp.andi x v reducesTo_S1024x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S8x2048x1024 .f32) (main_arg1 : FVec F S64x64 .f32) (main_arg2 : FVec F S1024x64 .f32) (main_arg3 : FVec F S1024x64 .f32) (main_arg4 : FVec F S1024x64 .f32) (main_arg5 : FVec F S64 .f32) (main_arg6 : FVec F S64 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg4 main_arg5 main_arg6 main_v13 main_v16
-- ==== Kernel.lean ====
abbrev S8x2048x1024 : Shape := ⟨3, ![8, 2048, 1024]⟩
abbrev S64x64 : Shape := ⟨2, ![64, 64]⟩
abbrev S1024x64 : Shape := ⟨2, ![1024, 64]⟩
abbrev S64 : Shape := ⟨1, ![64]⟩
abbrev S_ : Shape := ⟨0, ![]⟩
abbrev S64x1 : Shape := ⟨2, ![64, 1]⟩
abbrev S1x64 : Shape := ⟨2, ![1, 64]⟩
abbrev S8x2048x64 : Shape := ⟨3, ![8, 2048, 64]⟩
abbrev S1x2048x1024 : Shape := ⟨3, ![1, 2048, 1024]⟩
abbrev S1x256x64 : Shape := ⟨3, ![1, 256, 64]⟩
abbrev S2112x64 : Shape := ⟨2, ![2112, 64]⟩
abbrev S2048x1024 : Shape := ⟨2, ![2048, 1024]⟩
abbrev S2048x64 : Shape := ⟨2, ![2048, 64]⟩
abbrev S1x256x1024 : Shape := ⟨3, ![1, 256, 1024]⟩
abbrev S256x1024 : Shape := ⟨2, ![256, 1024]⟩
abbrev S256x64 : Shape := ⟨2, ![256, 64]⟩
abbrev S256x2112 : Shape := ⟨2, ![256, 2112]⟩
abbrev S256 : Shape := ⟨1, ![256]⟩
abbrev S256x1 : Shape := ⟨2, ![256, 1]⟩

abbrev nBuf : Space → Nat
  | .hbm => 52
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S64x64, .f32⟩
  | .hbm, ⟨2, _⟩ => ⟨S1024x64, .f32⟩
  | .hbm, ⟨3, _⟩ => ⟨S1024x64, .f32⟩
  | .hbm, ⟨4, _⟩ => ⟨S1024x64, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64x1, .f32⟩
  | .hbm, ⟨10, _⟩ => ⟨S_, .f32⟩
  | .hbm, ⟨11, _⟩ => ⟨S64x1, .f32⟩
  | .hbm, ⟨12, _⟩ => ⟨S64x1, .f32⟩
  | .hbm, ⟨13, _⟩ => ⟨S_, .i32⟩
  | .hbm, ⟨14, _⟩ => ⟨S_, .f32⟩
  | .hbm, ⟨15, _⟩ => ⟨S64, .f32⟩
  | .hbm, ⟨16, _⟩ => ⟨S64x1, .f32⟩
  | .hbm, ⟨17, _⟩ => ⟨S_, .f32⟩
  | .hbm, ⟨18, _⟩ => ⟨S64x1, .f32⟩
  | .hbm, ⟨19, _⟩ => ⟨S64x1, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S64, .f32⟩
  | .hbm, ⟨28, _⟩ => ⟨S64x1, .f32⟩
  | .hbm, ⟨29, _⟩ => ⟨S64x1, .f32⟩
  | .hbm, ⟨30, _⟩ => ⟨S64x1, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S64x1, .f32⟩
  | .hbm, ⟨36, _⟩ => ⟨S64x1, .f32⟩
  | .hbm, ⟨37, _⟩ => ⟨S64x64, .f32⟩
  | .hbm, ⟨38, _⟩ => ⟨S64x64, .f32⟩
  | .hbm, ⟨39, _⟩ => ⟨S_, .f32⟩
  | .hbm, ⟨40, _⟩ => ⟨S64x1, .f32⟩
  | .hbm, ⟨41, _⟩ => ⟨S64x1, .f32⟩
  | .hbm, ⟨42, _⟩ => ⟨S64x1, .f32⟩
  | .hbm, ⟨43, _⟩ => ⟨S64x64, .f32⟩
  | .hbm, ⟨44, _⟩ => ⟨S64x64, .f32⟩
  | .hbm, ⟨45, _⟩ => ⟨S1x64, .f32⟩
  | .hbm, ⟨46, _⟩ => ⟨S64x64, .f32⟩
  | .hbm, ⟨47, _⟩ => ⟨S64x64, .f32⟩
  | .hbm, ⟨48, _⟩ => ⟨S1x64, .f32⟩
  | .hbm, ⟨49, _⟩ => ⟨S64x64, .f32⟩
  | .hbm, ⟨50, _⟩ => ⟨S64x64, .f32⟩
  | .hbm, ⟨51, _⟩ => ⟨S8x2048x64, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S64x64, .f32⟩
  | .local _ .vmem, ⟨6, _⟩ => ⟨S1x256x64, .f32⟩
  | .local _ .vmem, ⟨7, _⟩ => ⟨S1x256x64, .f32⟩
  | .local _ .vmem, ⟨8, _⟩ => ⟨S2112x64, .bf16⟩
  | .local _ .vmem, ⟨9, _⟩ => ⟨S2112x64, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_cst_3 : Ref sig .tc := ⟨.hbm, 31, rfl⟩
abbrev main_call0_v13 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst_1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 3 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  reducesTo_S64x64_S64_d1 : S64x64.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x64_0_1 : S64x1.BroadcastsInDim S64x64 (![0, 1] : Fin 2 → Fin S64x64.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S2112x64_S2048x64_0_0 : ∀ a, (![0, 0] : Fin 2 → Nat) a + S2048x64.size a ≤ S2112x64.size a
  h_S2048x64 : 0 < S2048x64.numel
  shapeCasts_S2048x64_S2048x64 : S2048x64.ShapeCasts S2048x64
  packedbf16_S2112x64_S2048x64_0_0 : (Rect.unit (s := S2112x64) ![0, 0] S2048x64.size inb_S2112x64_S2048x64_0_0).PackedRows (EltTy.packing .bf16)
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S2112x64_S64x64_2048_0 : ∀ a, (![2048, 0] : Fin 2 → Nat) a + S64x64.size a ≤ S2112x64.size a
  packedbf16_S2112x64_S64x64_2048_0 : (Rect.unit (s := S2112x64) ![2048, 0] S64x64.size inb_S2112x64_S64x64_2048_0).PackedRows (EltTy.packing .bf16)
  h_S1x256x1024 : 0 < S1x256x1024.numel
  shapeCasts_S1x256x1024_S256x1024 : S1x256x1024.ShapeCasts S256x1024
  inb_S2112x64_S2112x64_0_0 : ∀ a, (![0, 0] : Fin 2 → Nat) a + S2112x64.size a ≤ S2112x64.size a
  h_S2112x64 : 0 < S2112x64.numel
  reduces_S256x2112_S256 : S256x2112.Reduces [1] S256
  shapeCasts_S256_S256x1 : S256.ShapeCasts S256x1
  broadcasts_S256x1_S256x2112 : S256x1.Broadcasts S256x2112
  broadcasts_S256x1_S256x64 : S256x1.Broadcasts S256x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  shapeCasts_S256x64_S1x256x64 : S256x64.ShapeCasts S1x256x64
  dot_S2048x1024_S1024x64_S2048x64_1_0_0_1_n_n_wf : DotDims.WF S2048x1024 S1024x64 S2048x64 [1] [0] [0] [1] [] []
  dot_S256x1024_S1024x64_S256x64_1_0_0_1_n_n_wf : DotDims.WF S256x1024 S1024x64 S256x64 [1] [0] [0] [1] [] []
  dot_S256x64_S2112x64_S256x2112_1_1_0_0_n_n_wf : DotDims.WF S256x64 S2112x64 S256x2112 [1] [1] [0] [0] [] []
  dot_S256x2112_S2112x64_S256x64_1_0_0_1_n_n_wf : DotDims.WF S256x2112 S2112x64 S256x64 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256x1024.size a ≤ S1x2048x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x1024.size a
  hwx0_0 : ∀ i : grid0.Coords, EltTy.bits .f32 = 32 ∨ (Rect.block (s := S8x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .f32 = 32 ∨ (Rect.block (s := S1024x64) S1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x64.size a ≤ S8x2048x64.size a
  hwx0_5 : ∀ i : grid0.Coords, EltTy.bits .f32 = 32 ∨ (Rect.block (s := S8x2048x64) S1x256x64.size (cc0_transform_5 i) (hinb0_5 i)).WholeWords (EltTy.packing .f32)

variable [Facts₀]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf
def dot_S256x64_S2112x64_S256x2112_1_1_0_0_n_n : DotDims S256x64 S2112x64 S256x2112 where
  lhsContracting := [1]
  rhsContracting := [1]
  lhsNonContracting := [0]
  rhsNonContracting := [0]
  lhsBatch := []
  rhsBatch := []
  wf := dot_S256x64_S2112x64_S256x2112_1_1_0_0_n_n_wf
def dot_S256x2112_S2112x64_S256x64_1_0_0_1_n_n : DotDims S256x2112 S2112x64 S256x64 where
  lhsContracting := [1]
  rhsContracting := [0]
  lhsNonContracting := [0]
  rhsNonContracting := [1]
  lhsBatch := []
  rhsBatch := []
  wf := dot_S256x2112_S2112x64_S256x64_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x256x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S64x64 : Shape := ⟨2, ![64, 64]⟩
abbrev S1024x64 : Shape := ⟨2, ![1024, 64]⟩
abbrev S64 : Shape := ⟨1, ![64]⟩
abbrev S_ : Shape := ⟨0, ![]⟩
abbrev S64x1 : Shape := ⟨2, ![64, 1]⟩
abbrev S1x64 : Shape := ⟨2, ![1, 64]⟩
abbrev S1x64x64 : Shape := ⟨3, ![1, 64, 64]⟩
abbrev S8x64x64 : Shape := ⟨3, ![8, 64, 64]⟩
abbrev S8x2048x64 : Shape := ⟨3, ![8, 2048, 64]⟩
abbrev S8x2112x64 : Shape := ⟨3, ![8, 2112, 64]⟩
abbrev S8x2048x2112 : Shape := ⟨3, ![8, 2048, 2112]⟩
abbrev S8x2048 : Shape := ⟨2, ![8, 2048]⟩
abbrev S8x2048x1 : Shape := ⟨3, ![8, 2048, 1]⟩

abbrev nBuf : Space → Nat
  | .hbm => 77
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S64x64, .f32⟩
  | .hbm, ⟨2, _⟩ => ⟨S1024x64, .f32⟩
  | .hbm, ⟨3, _⟩ => ⟨S1024x64, .f32⟩
  | .hbm, ⟨4, _⟩ => ⟨S1024x64, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64x1, .f32⟩
  | .hbm, ⟨10, _⟩ => ⟨S_, .f32⟩
  | .hbm, ⟨11, _⟩ => ⟨S64x1, .f32⟩
  | .hbm, ⟨12, _⟩ => ⟨S64x1, .f32⟩
  | .hbm, ⟨13, _⟩ => ⟨S_, .i32⟩
  | .hbm, ⟨14, _⟩ => ⟨S_, .f32⟩
  | .hbm, ⟨15, _⟩ => ⟨S64, .f32⟩
  | .hbm, ⟨16, _⟩ => ⟨S64x1, .f32⟩
  | .hbm, ⟨17, _⟩ => ⟨S_, .f32⟩
  | .hbm, ⟨18, _⟩ => ⟨S64x1, .f32⟩
  | .hbm, ⟨19, _⟩ => ⟨S64x1, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S64, .f32⟩
  | .hbm, ⟨28, _⟩ => ⟨S64x1, .f32⟩
  | .hbm, ⟨29, _⟩ => ⟨S64x1, .f32⟩
  | .hbm, ⟨30, _⟩ => ⟨S64x1, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S64x1, .f32⟩
  | .hbm, ⟨36, _⟩ => ⟨S64x1, .f32⟩
  | .hbm, ⟨37, _⟩ => ⟨S64x64, .f32⟩
  | .hbm, ⟨38, _⟩ => ⟨S64x64, .f32⟩
  | .hbm, ⟨39, _⟩ => ⟨S_, .f32⟩
  | .hbm, ⟨40, _⟩ => ⟨S64x1, .f32⟩
  | .hbm, ⟨41, _⟩ => ⟨S64x1, .f32⟩
  | .hbm, ⟨42, _⟩ => ⟨S64x1, .f32⟩
  | .hbm, ⟨43, _⟩ => ⟨S64x64, .f32⟩
  | .hbm, ⟨44, _⟩ => ⟨S64x64, .f32⟩
  | .hbm, ⟨45, _⟩ => ⟨S1x64, .f32⟩
  | .hbm, ⟨46, _⟩ => ⟨S64x64, .f32⟩
  | .hbm, ⟨47, _⟩ => ⟨S64x64, .f32⟩
  | .hbm, ⟨48, _⟩ => ⟨S1x64, .f32⟩
  | .hbm, ⟨49, _⟩ => ⟨S64x64, .f32⟩
  | .hbm, ⟨50, _⟩ => ⟨S64x64, .f32⟩
  | .hbm, ⟨51, _⟩ => ⟨S1x64x64, .f32⟩
  | .hbm, ⟨52, _⟩ => ⟨S8x64x64, .f32⟩
  | .hbm, ⟨53, _⟩ => ⟨S8x2048x64, .f32⟩
  | .hbm, ⟨54, _⟩ => ⟨S8x2048x64, .f32⟩
  | .hbm, ⟨55, _⟩ => ⟨S8x2112x64, .f32⟩
  | .hbm, ⟨56, _⟩ => ⟨S8x2048x64, .f32⟩
  | .hbm, ⟨57, _⟩ => ⟨S8x2112x64, .f32⟩
  | .hbm, ⟨58, _⟩ => ⟨S8x2048x2112, .f32⟩
  | .hbm, ⟨59, _⟩ => ⟨S_, .f32⟩
  | .hbm, ⟨60, _⟩ => ⟨S8x2048x2112, .f32⟩
  | .hbm, ⟨61, _⟩ => ⟨S8x2048x2112, .f32⟩
  | .hbm, ⟨62, _⟩ => ⟨S_, .f32⟩
  | .hbm, ⟨63, _⟩ => ⟨S8x2048, .f32⟩
  | .hbm, ⟨64, _⟩ => ⟨S_, .f32⟩
  | .hbm, ⟨65, _⟩ => ⟨S8x2048, .f32⟩
  | .hbm, ⟨66, _⟩ => ⟨S8x2048, .f32⟩
  | .hbm, ⟨67, _⟩ => ⟨S8x2048x1, .f32⟩
  | .hbm, ⟨68, _⟩ => ⟨S8x2048x2112, .f32⟩
  | .hbm, ⟨69, _⟩ => ⟨S8x2048x2112, .f32⟩
  | .hbm, ⟨70, _⟩ => ⟨S8x2048x2112, .f32⟩
  | .hbm, ⟨71, _⟩ => ⟨S_, .f32⟩
  | .hbm, ⟨72, _⟩ => ⟨S8x2048, .f32⟩
  | .hbm, ⟨73, _⟩ => ⟨S8x2048x1, .f32⟩
  | .hbm, ⟨74, _⟩ => ⟨S8x2048x2112, .f32⟩
  | .hbm, ⟨75, _⟩ => ⟨S8x2048x2112, .f32⟩
  | .hbm, ⟨76, _⟩ => ⟨S8x2048x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_cst_3 : Ref sig .tc := ⟨.hbm, 31, rfl⟩
abbrev main_call0_v13 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst_1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_cst_2 : Ref sig .tc := ⟨.hbm, 59, rfl⟩
abbrev main_v26 : Ref sig .tc := ⟨.hbm, 60, rfl⟩
abbrev main_v27 : Ref sig .tc := ⟨.hbm, 61, rfl⟩
abbrev main_cst_3 : Ref sig .tc := ⟨.hbm, 62, rfl⟩
abbrev main_v28 : Ref sig .tc := ⟨.hbm, 63, rfl⟩
abbrev main_cst_4 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_5 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩

abbrev nD : Nat := 1
abbrev τ : Topo := Topo.v7x

variable {F : FTy → Type} [FloatOps F]

class Facts₀ : Prop where
  reducesTo_S64x64_S64_d1 : S64x64.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x64_0_1 : S64x1.BroadcastsInDim S64x64 (![0, 1] : Fin 2 → Fin S64x64.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S64x64_S1x64x64_1_2 : S64x64.BroadcastsInDim S1x64x64 (![1, 2] : Fin 2 → Fin S1x64x64.rank)
  bcast_S1x64x64_S8x64x64_0_1_2 : S1x64x64.BroadcastsInDim S8x64x64 (![0, 1, 2] : Fin 3 → Fin S8x64x64.rank)
  concatenates_S8x2048x64_S8x64x64_S8x2112x64_d1 : Shape.Concatenates [S8x2048x64, S8x64x64] S8x2112x64 1
  bcast_S_S8x2048x2112 : S_.BroadcastsInDim S8x2048x2112 (![] : Fin 0 → Fin S8x2048x2112.rank)
  reducesTo_S8x2048x2112_S8x2048_d2 : S8x2048x2112.ReducesTo [2] S8x2048
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2112_0_1_2 : S8x2048x1.BroadcastsInDim S8x2048x2112 (![0, 1, 2] : Fin 3 → Fin S8x2048x2112.rank)
  dot_S8x2048x1024_S1024x64_S8x2048x64_2_0_01_1_n_n_wf : DotDims.WF S8x2048x1024 S1024x64 S8x2048x64 [2] [0] [0, 1] [1] [] []
  dot_S8x2048x64_S8x2112x64_S8x2048x2112_2_2_1_1_0_0_wf : DotDims.WF S8x2048x64 S8x2112x64 S8x2048x2112 [2] [2] [1] [1] [0] [0]
  dot_S8x2048x2112_S8x2112x64_S8x2048x64_2_1_1_2_0_0_wf : DotDims.WF S8x2048x2112 S8x2112x64 S8x2048x64 [2] [1] [1] [2] [0] [0]

variable [Facts₀]

def dot_S8x2048x1024_S1024x64_S8x2048x64_2_0_01_1_n_n : DotDims S8x2048x1024 S1024x64 S8x2048x64 where
  lhsContracting := [2]
  rhsContracting := [0]
  lhsNonContracting := [0, 1]
  rhsNonContracting := [1]
  lhsBatch := []
  rhsBatch := []
  wf := dot_S8x2048x1024_S1024x64_S8x2048x64_2_0_01_1_n_n_wf
def dot_S8x2048x64_S8x2112x64_S8x2048x2112_2_2_1_1_0_0 : DotDims S8x2048x64 S8x2112x64 S8x2048x2112 where
  lhsContracting := [2]
  rhsContracting := [2]
  lhsNonContracting := [1]
  rhsNonContracting := [1]
  lhsBatch := [0]
  rhsBatch := [0]
  wf := dot_S8x2048x64_S8x2112x64_S8x2048x2112_2_2_1_1_0_0_wf
def dot_S8x2048x2112_S8x2112x64_S8x2048x64_2_1_1_2_0_0 : DotDims S8x2048x2112 S8x2112x64 S8x2048x64 where
  lhsContracting := [2]
  rhsContracting := [1]
  lhsNonContracting := [1]
  rhsNonContracting := [2]
  lhsBatch := [0]
  rhsBatch := [0]
  wf := dot_S8x2048x2112_S8x2112x64_S8x2048x64_2_1_1_2_0_0_wf

class Facts : Prop extends Facts₀ where

variable [Facts]
-- ==== Proof.KernelPieces.lean ====
/-
  What one grid point of the kernel leaves behind, as values.

  A point (b, qi) with qi = 0 first fills the two carried buffers: rows 0..2047 with the projections of the batch's
  tokens by wk (by wv), rows 2048..2111 with the memory rows; every point then computes its 256 query rows' attention
  against the carried buffers. So: at qi = 0 the carried keys are 'keysOf' of the point's blocks and the output block
  is 'attendTile' of the point's token tile, wq and those freshly stored buffers; at qi ≠ 0 the carried buffers are
  what the point before left, and the output block is 'attendTile' of the tile, wq and them.
-/
import proofs.«158825_j27247272526054_2_alg».proof.Proof.Gen.KernelIdeal.Frame
import Idealize.ShloMosaic.Lib.Pipeline.Value
import Idealize.ShloMosaic.Lib.Tactic

set_option maxRecDepth 16384

noncomputable section

namespace Cert.Attn.Ker

open Cert.KernelIdeal Cert.KernelIdeal.Gen
open Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A load of the whole carried buffer after a list of stores into it reads what the stores left. -/
theorem readCov_whole {sg : RefSig} {κ : Kind} {sp : Space} {e : EltTy} (v : View sg κ sp S2112x64 e)
    (L : List (View.Piece (Elt F) S2112x64 e)) (inb : ∀ a, (![0, 0] : Fin 2 → Nat) a + S2112x64.size a ≤ S2112x64.size a) :
    v.readCov L (Rect.unit (s := S2112x64) ![0, 0] S2112x64.size inb).toLoadRect = View.canon L := by
  rw [View.readCov_eq_canon']
  exact View.ld_unit_zero hz2 inb (View.canon L)

/-- The 256 token rows of the batch's block that point i attends from. -/
def tile (i : grid0.Coords) (x0 : Vec F S1x2048x1024 .f32) : Vec F S1x256x1024 .f32 :=
  View.ld x0 (Rect.unit (s := S1x2048x1024) (k0_off1 i) S1x256x1024.size (Gen.k0_off1_inb i))

/-- The carried keys after a first point: the projected tokens in rows 0..2047, the memory rows below. -/
def keysOf (x0 : Vec F S1x2048x1024 .f32) (x2 : Vec F S1024x64 .f32) (x4 : Vec F S64x64 .f32) : Vec F S2112x64 .bf16 :=
  View.canon [⟨Rect.unit (s := S2112x64) ![2048, 0] S64x64.size Gen.inb_S2112x64_S64x64_2048_0, k0_pay5 x4⟩,
    ⟨Rect.unit (s := S2112x64) ![0, 0] S2048x64.size Gen.inb_S2112x64_S2048x64_0_0, k0_pay2 x0 x2⟩]

/-- The carried values after a first point. -/
def valsOf (x0 : Vec F S1x2048x1024 .f32) (x3 : Vec F S1024x64 .f32) (x4 : Vec F S64x64 .f32) : Vec F S2112x64 .bf16 :=
  View.canon [⟨Rect.unit (s := S2112x64) ![2048, 0] S64x64.size Gen.inb_S2112x64_S64x64_2048_0, k0_pay6 x4⟩,
    ⟨Rect.unit (s := S2112x64) ![0, 0] S2048x64.size Gen.inb_S2112x64_S2048x64_0_0, k0_pay3 x0 x3⟩]

section
variable (c : Dev nD) (i : grid0.Coords) (arg2 : Memref sig .tc .vmem S1x2048x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S64x64 .f32) (harg6 : arg6.IsWhole) (arg7 : Memref sig .tc .vmem S1x256x64 .f32) (harg7 : arg7.IsWhole) (arg8 : Memref sig .tc .vmem S2112x64 .bf16) (harg8 : arg8.IsWhole) (arg9 : Memref sig .tc .vmem S2112x64 .bf16) (harg9 : arg9.IsWhole)
variable (x0 : Vec F S1x2048x1024 .f32) (x1 x2 x3 : Vec F S1024x64 .f32) (x4 : Vec F S64x64 .f32)

/-- A later point's output block: the attention of its tile against the carried buffers. -/
theorem out_later (hc0 : ¬cond0_0 i) (xs0 xs1 : Vec F S2112x64 .bf16) :
    out0_B_5 c i arg2 harg2 arg3 harg3 arg4 harg4 arg5 harg5 arg6 harg6 arg7 harg7 arg8 harg8 arg9 harg9 hc0 x0 x1 x2 x3 x4 xs0 xs1 = k0_pay7 (tile i x0) x1 xs0 xs1 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xs0 xs1)]
  unfold kernelRun0_B
  dsimp only
  rw [View.canon_unit_zero hz3]
  simp only [View.readAt_eq_ld, harg2.read_unread, harg3.read_unread, harg8.read_unread, harg9.read_unread,
    View.ld_unit_zero (S := S1024x64) hz2, View.ld_unit_zero (S := S2112x64) hz2]
  rfl

/-- A first point's carried keys. -/
theorem keys_first (hc0 : cond0_0 i) :
    sout0_A_0 c i arg2 harg2 arg3 harg3 arg4 harg4 arg5 harg5 arg6 harg6 arg7 harg7 arg8 harg8 arg9 harg9 hc0 x0 x1 x2 x3 x4 = keysOf x0 x2 x4 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4)]
  unfold kernelRun0_A
  dsimp only
  sl_unfold_run_names
  simp only [View.readAt_eq_ld, harg2.read_unread, harg4.read_unread, harg6.read_unread,
    View.ld_unit_zero (S := S1x2048x1024) hz3, View.ld_unit_zero (S := S1024x64) hz2, View.ld_unit_zero (S := S64x64) hz2]
  rfl

/-- A first point's carried values. -/
theorem vals_first (hc0 : cond0_0 i) :
    sout0_A_1 c i arg2 harg2 arg3 harg3 arg4 harg4 arg5 harg5 arg6 harg6 arg7 harg7 arg8 harg8 arg9 harg9 hc0 x0 x1 x2 x3 x4 = valsOf x0 x3 x4 := by
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3 x4)]
  unfold kernelRun0_A
  dsimp only
  sl_unfold_run_names
  simp only [View.readAt_eq_ld, harg2.read_unread, harg5.read_unread, harg6.read_unread,
    View.ld_unit_zero (S := S1x2048x1024) hz3, View.ld_unit_zero (S := S1024x64) hz2, View.ld_unit_zero (S := S64x64) hz2]
  rfl

/-- A first point's output block: the attention of its tile against the buffers it has just stored. -/
theorem out_first (hc0 : cond0_0 i) :
    out0_A_5 c i arg2 harg2 arg3 harg3 arg4 harg4 arg5 harg5 arg6 harg6 arg7 harg7 arg8 harg8 arg9 harg9 hc0 x0 x1 x2 x3 x4 = k0_pay7 (tile i x0) x1 (keysOf x0 x2 x4) (valsOf x0 x3 x4) := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_run_names
  rw [View.canon_unit_zero hz3]
  simp only [View.readAt_eq_ld, harg2.read_unread, harg3.read_unread, harg4.read_unread, harg5.read_unread, harg6.read_unread,
    View.ld_unit_zero (S := S1x2048x1024) hz3, View.ld_unit_zero (S := S1024x64) hz2, View.ld_unit_zero (S := S64x64) hz2]
  exact congrArg₂ (k0_pay7 (tile i x0) x1) (readCov_whole _ _ _) (readCov_whole _ _ _)

end

end Cert.Attn.Ker

end
-- ==== Proof.AttnSpec.lean ====
/-
  The mathematics both programs compute, written once, over literal shapes.

  Inputs: tokens x[b,t,D] (8 x 2048 x 1024), a table c[i,j] (64 x 64) of memory embeddings with a scale gamma[j] and a
  shift beta[j], and three projections wq, wk, wv (1024 x 64).

  * The memory rows are the table normalised row by row: each row minus its mean, times the reciprocal square root of its
    variance plus a small constant, times gamma, plus beta ('memTerm', spelt as the host operations spell it).
  * Queries, keys and values are the products of x with wq, wk, wv ('proj'); the keys and the values of a batch are
    extended by the 64 memory rows ('ext': rows 0..2047 the projections, rows 2048..2111 the memory rows).
  * A score is the inner product of a query with an extended key over the 64 features, times 1/8 ('score'); a row's
    weights are exp(score - the row's maximum) ('pexp'), their sum the row's denominator ('denom').
  * One program divides the weighted sum of the extended values by the denominator ('outSumThenDiv'); the other divides
    each weight first and then sums ('outDivThenSum').
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1024x64 : Shape := ⟨2, ![1024, 64]⟩
abbrev S8x2048x1024 : Shape := ⟨3, ![8, 2048, 1024]⟩
abbrev S8x2048x64 : Shape := ⟨3, ![8, 2048, 64]⟩

theorem red_rows : S64x64.ReducesTo [1] S64 := by decide
theorem pos_S_ : 0 < S_.numel := by decide
theorem bc_64_64x1 : S64.BroadcastsInDim S64x1 (![0] : Fin 1 → Fin S64x1.rank) := by decide
theorem bc__64x1 : S_.BroadcastsInDim S64x1 (![] : Fin 0 → Fin S64x1.rank) := by decide
theorem bc_64x1_64x64 : S64x1.BroadcastsInDim S64x64 (![0, 1] : Fin 2 → Fin S64x64.rank) := by decide
theorem bc_64_1x64 : S64.BroadcastsInDim S1x64 (![1] : Fin 1 → Fin S1x64.rank) := by decide
theorem bc_1x64_64x64 : S1x64.BroadcastsInDim S64x64 (![0, 1] : Fin 2 → Fin S64x64.rank) := by decide

/-! ## The normalised memory rows, as the host operations spell them -/

/-- Each row's mean, as a column: the row's sum (from zero) over 64. -/
def lnMean (c : FVec Ideal S64x64 .f32) : FVec Ideal S64x1 .f32 :=
  Host.divf
    (broadcastInDim S64x1 ![0] bc_64_64x1 (Host.reduceAdd c (constant (F := Ideal) S_ .f32 0x00000000#32) red_rows pos_S_))
    (broadcastInDim S64x1 ![] bc__64x1 (constant (F := Ideal) S_ .f32 0x42800000#32))

/-- The count the variance divides by: 64 minus the (integer, zero) correction, as a float. -/
def lnCount : FVec Ideal S_ .f32 :=
  subf (constant (F := Ideal) S_ .f32 0x42800000#32) (sitofp .f32 (constantI S_ 32 0#32))

/-- Each row's variance, as a column: the sum of squared deviations from the mean over the count, where the count is
    positive (else a fixed pattern). -/
def lnVar (c : FVec Ideal S64x64 .f32) : FVec Ideal S64x1 .f32 :=
  select
    (broadcastInDim S64x1 ![] bc__64x1 (cmpf .ogt lnCount (constant (F := Ideal) S_ .f32 0x00000000#32)))
    (Host.divf
      (broadcastInDim S64x1 ![0] bc_64_64x1
        (Host.reduceAdd
          (mulf (subf c (broadcastInDim S64x64 ![0, 1] bc_64x1_64x64 (lnMean c)))
                (subf c (broadcastInDim S64x64 ![0, 1] bc_64x1_64x64 (lnMean c))))
          (constant (F := Ideal) S_ .f32 0x00000000#32) red_rows pos_S_))
      (broadcastInDim S64x1 ![] bc__64x1 lnCount))
    (broadcastInDim S64x1 ![] bc__64x1 (id (constant (F := Ideal) S_ .f32 0x7FC00000#32)))

/-- The memory rows: (c - mean) * rsqrt(var + eps) * gamma + beta. -/
def memTerm (c : FVec Ideal S64x64 .f32) (gam bet : FVec Ideal S64 .f32) : FVec Ideal S64x64 .f32 :=
  addf
    (mulf
      (mulf (subf c (broadcastInDim S64x64 ![0, 1] bc_64x1_64x64 (lnMean c)))
        (broadcastInDim S64x64 ![0, 1] bc_64x1_64x64
          (Host.rsqrt (addf (lnVar c) (broadcastInDim S64x1 ![] bc__64x1 (constant (F := Ideal) S_ .f32 0x3727C5AC#32))))))
      (broadcastInDim S64x64 ![0, 1] bc_1x64_64x64 (broadcastInDim S1x64 ![1] bc_64_1x64 gam)))
    (broadcastInDim S64x64 ![0, 1] bc_1x64_64x64 (broadcastInDim S1x64 ![1] bc_64_1x64 bet))

/-! ## Attention, index by index -/

variable (x : S8x2048x1024.Idx → EReal) (wq wk wv : S1024x64.Idx → EReal) (mem : S64x64.Idx → EReal)

/-- A projection of token (b, t): the sum over the 1024 input features. -/
def proj (w : S1024x64.Idx → EReal) (b : Fin 8) (t : Fin 2048) (j : Fin 64) : EReal :=
  ∑ d : Fin 1024, x (ix3 b t d) * w (ix2 d j)

/-- Row s of a batch's extended keys or values: a projected token for s < 2048, memory row s - 2048 after. -/
def ext (w : S1024x64.Idx → EReal) (b : Fin 8) (s : Fin 2112) (j : Fin 64) : EReal :=
  if h : s.val < 2048 then proj x w b ⟨s.val, h⟩ j else mem (ix2 (⟨s.val - 2048, by omega⟩ : Fin 64) j)

/-- The scale 1/8, as the pattern both programs carry. -/
def eighth : EReal := Ideal.ofBits .f32 0x3E000000#32

/-- The pattern of minus infinity, from which both programs start a row's maximum. -/
def negInf : EReal := Ideal.ofBits .f32 0xFF800000#32

def score (b : Fin 8) (t : Fin 2048) (s : Fin 2112) : EReal :=
  (∑ j : Fin 64, proj x wq b t j * ext x mem wk b s j) * eighth

def rowMax (b : Fin 8) (t : Fin 2048) : EReal :=
  (Finset.univ : Finset (Fin 2112)).fold max negInf (fun s => score x wq wk mem b t s)

def pexp (b : Fin 8) (t : Fin 2048) (s : Fin 2112) : EReal :=
  Ideal.exp (score x wq wk mem b t s - rowMax x wq wk mem b t)

def denom (b : Fin 8) (t : Fin 2048) : EReal := ∑ s : Fin 2112, pexp x wq wk mem b t s

/-- Sum the weighted values, then divide by the denominator. -/
def outSumThenDiv (b : Fin 8) (t : Fin 2048) (j : Fin 64) : EReal :=
  Ideal.div (∑ s : Fin 2112, pexp x wq wk mem b t s * ext x mem wv b s j) (denom x wq wk mem b t)

/-- Divide each weight by the denominator, then sum the weighted values. -/
def outDivThenSum (b : Fin 8) (t : Fin 2048) (j : Fin 64) : EReal :=
  ∑ s : Fin 2112, Ideal.div (pexp x wq wk mem b t s) (denom x wq wk mem b t) * ext x mem wv b s j

end Cert.Attn

end
-- ==== Proof.LibContract.lean ====
/-
  A contraction over ONE axis, read as a sum over that axis's coordinate.

  A matrix product on the TensorCore (into a zero accumulator) and the host's `dot_general` are, at the ideal values, the
  sum over the contraction index of the operands' products. When one axis is contracted the contraction index is a single
  coordinate `i < n`, and the sum is the `Fin n`-indexed sum of whatever the two operands are at the operand indices
  that coordinate selects.
-/
import Idealize.ShloMosaic.PureOps.Ideal.Laws
import Idealize.ShloMosaic.Lib.ValueIdx

namespace Idealize.ShloMosaic.ContractSingle

open Idealize.ShloMosaic.ValueIdx

/-- The sum over a one-axis contraction index, with the operands' factors named at each coordinate `i` of the contracted
    axis (`hl`, `hr`), is the sum of the named factors' products over `i`. -/
theorem sum_single {sl sr so : Shape} (d : DotDims sl sr so) (n : Nat) (hrank : d.contr.rank = 1)
    (hsize : d.contr.size ⟨0, by omega⟩ = n) (l : sl.Idx → EReal) (r : sr.Idx → EReal) (j : so.Idx) (L R : Fin n → EReal)
    (hl : ∀ i : Fin n, l (d.lhsIdx j ((contrEquiv1 d n hrank hsize).symm i)) = L i)
    (hr : ∀ i : Fin n, r (d.rhsIdx j ((contrEquiv1 d n hrank hsize).symm i)) = R i) :
    ∑ k : d.contr.Idx, l (d.lhsIdx j k) * r (d.rhsIdx j k) = ∑ i : Fin n, L i * R i := by
  rw [← Equiv.sum_comp (contrEquiv1 d n hrank hsize).symm]
  exact Finset.sum_congr rfl fun i _ => by rw [hl i, hr i]

/-- A TensorCore matrix product into the zero accumulator, one axis contracted, read at an output index. -/
theorem matmul_zero_single {sl sr so : Shape} {φ₁ φ₂ : FTy} (d : DotDims sl sr so) (prec : Option ContractPrecision) (n : Nat)
    (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.matmul d prec lhs rhs (constant so .f32 0x00000000#32) j = ∑ i : Fin n, L i * R i :=
  (Ideal.matmul_constant_zero_apply d prec lhs rhs j).trans (sum_single d n hrank hsize lhs rhs j L R hl hr)

/-- The host's `dot_general`, one axis contracted, read at an output index. -/
theorem dotGeneral_single {sl sr so : Shape} {φ₁ φ₂ : FTy} (d : DotDims sl sr so) (prec : Option ContractPrecision)
    (sched : HostSchedule) (n : Nat) (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.dotGeneral d prec sched lhs rhs j = ∑ i : Fin n, L i * R i :=
  (Ideal.dotGeneral_apply d prec sched lhs rhs j).trans (sum_single d n hrank hsize lhs rhs j L R hl hr)

end Idealize.ShloMosaic.ContractSingle
-- ==== Proof.KernelStages.lean ====
/-
  The non-pointwise operations of the kernel body, each read at an index over explicit coordinates.

  Three matrix products into a zero accumulator are sums over the one contracted coordinate; a row sum and a row maximum
  over the 2112 keys are a sum and a fold of max over the key coordinate; a column [a] seen as [a, 1] and spread over
  [a, b] reads the column's entry of the row.
-/
import proofs.«158825_j27247272526054_2_alg».proof.Proof.Gen.KernelIdeal
import proofs.«158825_j27247272526054_2_alg».proof.Proof.AttnSpec
import proofs.«158825_j27247272526054_2_alg».proof.Proof.LibContract
import Idealize.ShloMosaic.Lib.Pipeline.Value
import Idealize.ShloMosaic.Lib.ValueIdx
import Idealize.ShloMosaic.Lib.ValueLayout
import Idealize.ShloMosaic.PureOps.Ideal.Laws

noncomputable section

namespace Cert.Attn.Ker

open Cert.KernelIdeal Cert.KernelIdeal.Gen
open Idealize.ShloMosaic Idealize.ShloMosaic.ValueIdx

/-! ## Layout: a column kept as a unit axis -/

/-- A vector [a] seen as a column [a, 1] reads, at (r, 0), its entry r. -/
theorem cast_col {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_one, Shape.rowMajor_val_two]
    show r.val = r.val * 1 + u.val
    rw [hu]; omega)

/-- A column [a, 1] spread over [a, b] reads, at (r, c), the column's entry of row r. -/
theorem bcast_col {α : Type} {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-! ## The three products -/

/-- Tile rows times a projection: the sum over the 1024 input features. -/
theorem proj_tile (x8 : FVec Ideal S256x1024 .bf16) (w10 : FVec Ideal S1024x64 .bf16) (r : Fin 256) (j : Fin 64) :
    matmul dot_S256x1024_S1024x64_S256x64_1_0_0_1_n_n none x8 w10 (constant S256x64 .f32 0x00000000#32) (ix2 r j)
      = ∑ d : Fin 1024, x8 (ix2 r d) * w10 (ix2 d j) :=
  ContractSingle.matmul_zero_single dot_S256x1024_S1024x64_S256x64_1_0_0_1_n_n none 1024 rfl rfl x8 w10 (ix2 r j) _ _
    (fun d => congrArg x8 (funext fun a => Fin.ext (match a with
      | ⟨0, _⟩ => rfl
      | ⟨1, _⟩ => (DotDims.lhsIdx_val_of_single _ rfl _ _).trans (contrEquiv1_symm_val _ _ _ _ d))))
    (fun d => congrArg w10 (funext fun a => Fin.ext (match a with
      | ⟨0, _⟩ => (DotDims.rhsIdx_val_of_single _ rfl _ _).trans (contrEquiv1_symm_val _ _ _ _ d)
      | ⟨1, _⟩ => rfl)))

/-- All 2048 token rows times a projection. -/
theorem proj_all (x34 : FVec Ideal S2048x1024 .bf16) (w : FVec Ideal S1024x64 .bf16) (s : Fin 2048) (j : Fin 64) :
    matmul dot_S2048x1024_S1024x64_S2048x64_1_0_0_1_n_n none x34 w (constant S2048x64 .f32 0x00000000#32) (ix2 s j)
      = ∑ d : Fin 1024, x34 (ix2 s d) * w (ix2 d j) :=
  ContractSingle.matmul_zero_single dot_S2048x1024_S1024x64_S2048x64_1_0_0_1_n_n none 1024 rfl rfl x34 w (ix2 s j) _ _
    (fun d => congrArg x34 (funext fun a => Fin.ext (match a with
      | ⟨0, _⟩ => rfl
      | ⟨1, _⟩ => (DotDims.lhsIdx_val_of_single _ rfl _ _).trans (contrEquiv1_symm_val _ _ _ _ d))))
    (fun d => congrArg w (funext fun a => Fin.ext (match a with
      | ⟨0, _⟩ => (DotDims.rhsIdx_val_of_single _ rfl _ _).trans (contrEquiv1_symm_val _ _ _ _ d)
      | ⟨1, _⟩ => rfl)))

/-- Queries against keys: the inner product over the 64 features. -/
theorem scores_tile (q12 : FVec Ideal S256x64 .bf16) (K : FVec Ideal S2112x64 .bf16) (r : Fin 256) (s : Fin 2112) :
    matmul dot_S256x64_S2112x64_S256x2112_1_1_0_0_n_n none q12 K (constant S256x2112 .f32 0x00000000#32) (ix2 r s)
      = ∑ j : Fin 64, q12 (ix2 r j) * K (ix2 s j) :=
  ContractSingle.matmul_zero_single dot_S256x64_S2112x64_S256x2112_1_1_0_0_n_n none 64 rfl rfl q12 K (ix2 r s) _ _
    (fun d => congrArg q12 (funext fun a => Fin.ext (match a with
      | ⟨0, _⟩ => rfl
      | ⟨1, _⟩ => (DotDims.lhsIdx_val_of_single _ rfl _ _).trans (contrEquiv1_symm_val _ _ _ _ d))))
    (fun d => congrArg K (funext fun a => Fin.ext (match a with
      | ⟨0, _⟩ => rfl
      | ⟨1, _⟩ => (DotDims.rhsIdx_val_of_single _ rfl _ _).trans (contrEquiv1_symm_val _ _ _ _ d))))

/-- Weights against values: the sum over the 2112 keys. -/
theorem pv_tile (p25 : FVec Ideal S256x2112 .bf16) (V : FVec Ideal S2112x64 .bf16) (r : Fin 256) (j : Fin 64) :
    matmul dot_S256x2112_S2112x64_S256x64_1_0_0_1_n_n none p25 V (constant S256x64 .f32 0x00000000#32) (ix2 r j)
      = ∑ s : Fin 2112, p25 (ix2 r s) * V (ix2 s j) :=
  ContractSingle.matmul_zero_single dot_S256x2112_S2112x64_S256x64_1_0_0_1_n_n none 2112 rfl rfl p25 V (ix2 r j) _ _
    (fun d => congrArg p25 (funext fun a => Fin.ext (match a with
      | ⟨0, _⟩ => rfl
      | ⟨1, _⟩ => (DotDims.lhsIdx_val_of_single _ rfl _ _).trans (contrEquiv1_symm_val _ _ _ _ d))))
    (fun d => congrArg V (funext fun a => Fin.ext (match a with
      | ⟨0, _⟩ => (DotDims.rhsIdx_val_of_single _ rfl _ _).trans (contrEquiv1_symm_val _ _ _ _ d)
      | ⟨1, _⟩ => rfl)))

/-! ## The two row reductions -/

/-- A row's sum over the keys. -/
theorem row_sum (v : FVec Ideal S256x2112 .f32) (hφ : FKind.Formats .f32) (hacc : (0x00000000#32 : BitVec 32) = FKind.add.neutral .f32 hφ)
    (r : Fin 256) :
    multiReduction .add [1] S256 v 0x00000000#32 reduces_S256x2112_S256 hφ hacc (ix1 r) = ∑ s : Fin 2112, v (ix2 r s) :=
  (Ideal.multiReduction_add_single v 0x00000000#32 reduces_S256x2112_S256 hφ hacc (ix1 r)).trans
    (Finset.sum_congr rfl fun s _ => congrArg v (funext fun a => Fin.ext (match a with | ⟨0, _⟩ => rfl | ⟨1, _⟩ => rfl)))

/-- A row's maximum over the keys, from the pattern of minus infinity. -/
theorem row_max (v : FVec Ideal S256x2112 .f32) (hφ : FKind.Formats .f32) (hacc : (0xFF800000#32 : BitVec 32) = FKind.maximumf.neutral .f32 hφ)
    (r : Fin 256) :
    multiReduction .maximumf [1] S256 v 0xFF800000#32 reduces_S256x2112_S256 hφ hacc (ix1 r)
      = (Finset.univ : Finset (Fin 2112)).fold max negInf (fun s => v (ix2 r s)) :=
  (Ideal.multiReduction_maximumf_single v 0xFF800000#32 reduces_S256x2112_S256 hφ hacc (ix1 r)).trans
    (congrArg (Finset.fold max negInf · Finset.univ) (funext fun s =>
      congrArg v (funext fun a => Fin.ext (match a with | ⟨0, _⟩ => rfl | ⟨1, _⟩ => rfl))))

end Cert.Attn.Ker

end
-- ==== Proof.KernelAttend.lean ====
/-
  One output row of a grid point, read at an index.

  For a query row q (64 features) and carried keys K and values V (2112 rows), the body computes the scores
  s ↦ (∑ j, q j · K s j) / 8, their maximum M from minus infinity, the weights exp(score − M), and
  (∑ s, weight s · V s j) divided by ∑ s, weight s: 'attendRow'. The query row itself is the tile's token row times wq.
-/
import proofs.«158825_j27247272526054_2_alg».proof.Proof.Gen.KernelIdeal.Skeleton
import proofs.«158825_j27247272526054_2_alg».proof.Proof.KernelStages

noncomputable section

namespace Cert.Attn.Ker

open Cert.KernelIdeal Cert.KernelIdeal.Gen
open Idealize.ShloMosaic Idealize.ShloMosaic.ValueIdx

/-- A row's maximum score, from the pattern of minus infinity. -/
def rowMaxOf (q : Fin 64 → EReal) (K : S2112x64.Idx → EReal) : EReal :=
  (Finset.univ : Finset (Fin 2112)).fold max negInf (fun s => (∑ j' : Fin 64, q j' * K (ix2 s j')) * eighth)

/-- One output entry: the weighted values' sum over the weights' sum. -/
def attendRow (q : Fin 64 → EReal) (K V : S2112x64.Idx → EReal) (j : Fin 64) : EReal :=
  Ideal.div
    (∑ s : Fin 2112, Ideal.exp ((∑ j' : Fin 64, q j' * K (ix2 s j')) * eighth - rowMaxOf q K) * V (ix2 s j))
    (∑ s : Fin 2112, Ideal.exp ((∑ j' : Fin 64, q j' * K (ix2 s j')) * eighth - rowMaxOf q K))

/-- The softmax part of the body over ANY score matrix whose row r reads sc: the maximum, the exponentials, their sum,
    the product with the values and the final quotient, at (r, j). -/
theorem softmax_tile (S17 : FVec Ideal S256x2112 .f32) (V : FVec Ideal S2112x64 .bf16)
    (hφ : FKind.Formats .f32) (hmax : (0xFF800000#32 : BitVec 32) = FKind.maximumf.neutral .f32 hφ)
    (hadd : (0x00000000#32 : BitVec 32) = FKind.add.neutral .f32 hφ)
    (r : Fin 256) (j : Fin 64) (sc : Fin 2112 → EReal) (hsc : ∀ s, S17 (ix2 r s) = sc s) :
    divf
      (matmul dot_S256x2112_S2112x64_S256x64_1_0_0_1_n_n none
        (truncf .bf16
          (exp (subf S17
            (broadcastTo S256x2112
              (shapeCast S256x1 (multiReduction .maximumf [1] S256 S17 0xFF800000#32 reduces_S256x2112_S256 hφ hmax) shapeCasts_S256_S256x1)
              broadcasts_S256x1_S256x2112)))
          bitsLt_bf16_f32)
        V (constant S256x64 .f32 0x00000000#32))
      (broadcastTo S256x64
        (shapeCast S256x1
          (multiReduction .add [1] S256
            (exp (subf S17
              (broadcastTo S256x2112
                (shapeCast S256x1 (multiReduction .maximumf [1] S256 S17 0xFF800000#32 reduces_S256x2112_S256 hφ hmax) shapeCasts_S256_S256x1)
                broadcasts_S256x1_S256x2112)))
            0x00000000#32 reduces_S256x2112_S256 hφ hadd)
          shapeCasts_S256_S256x1)
        broadcasts_S256x1_S256x64)
      (ix2 r j)
    = Ideal.div
        (∑ s : Fin 2112, Ideal.exp (sc s - (Finset.univ : Finset (Fin 2112)).fold max negInf sc) * V (ix2 s j))
        (∑ s : Fin 2112, Ideal.exp (sc s - (Finset.univ : Finset (Fin 2112)).fold max negInf sc)) := by
  have hM : ∀ s : Fin 2112,
      (broadcastTo S256x2112
        (shapeCast S256x1 (multiReduction .maximumf [1] S256 S17 0xFF800000#32 reduces_S256x2112_S256 hφ hmax) shapeCasts_S256_S256x1)
        broadcasts_S256x1_S256x2112) (ix2 r s) = (Finset.univ : Finset (Fin 2112)).fold max negInf sc := fun s =>
    (bcast_col _ _ r s).trans ((cast_col _ _ r 0).trans ((row_max S17 hφ hmax r).trans
      (congrArg (Finset.fold max negInf · Finset.univ) (funext hsc))))
  have hP : ∀ s : Fin 2112,
      (exp (subf S17
        (broadcastTo S256x2112
          (shapeCast S256x1 (multiReduction .maximumf [1] S256 S17 0xFF800000#32 reduces_S256x2112_S256 hφ hmax) shapeCasts_S256_S256x1)
          broadcasts_S256x1_S256x2112))) (ix2 r s)
      = Ideal.exp (sc s - (Finset.univ : Finset (Fin 2112)).fold max negInf sc) := fun s => by
    show Ideal.exp (S17 (ix2 r s) - _) = _
    rw [hM s, hsc s]
  refine congrArg₂ Ideal.div ?_ ?_
  · refine (pv_tile _ V r j).trans (Finset.sum_congr rfl fun s _ => ?_)
    exact congrArg (· * V (ix2 s j)) (hP s)
  · refine (bcast_col _ _ r j).trans ((cast_col _ _ r 0).trans ((row_sum _ hφ hadd r).trans
      (Finset.sum_congr rfl fun s _ => hP s)))

/-- The body's output payload at (r, j) of its block: the attention of the tile's row r against the carried buffers. -/
theorem pay7_apply (x6 : Vec Ideal S1x256x1024 .f32) (w : Vec Ideal S1024x64 .f32) (K V : Vec Ideal S2112x64 .bf16)
    (u : Fin 1) (r : Fin 256) (j : Fin 64) :
    k0_pay7 x6 w K V (ix3 u r j)
      = attendRow (fun j' => ∑ d : Fin 1024, x6 (ix3 (0 : Fin 1) r d) * w (ix2 d j')) K V j := by
  unfold k0_pay7
  refine (shapeCast_ab_1ab_apply _ _ u r j).trans ?_
  refine (softmax_tile _ V _ _ _ r j
    (fun s => (∑ j' : Fin 64, (∑ d : Fin 1024, x6 (ix3 (0 : Fin 1) r d) * w (ix2 d j')) * K (ix2 s j')) * eighth) ?_).trans ?_
  · intro s
    refine (mulf_apply _ _ _).trans ?_
    refine congrArg₂ (· * ·) ?_ rfl
    refine (scores_tile _ K r s).trans (Finset.sum_congr rfl fun j' _ => ?_)
    refine congrArg (· * K (ix2 s j')) ?_
    show (matmul (F := Ideal) dot_S256x1024_S1024x64_S256x64_1_0_0_1_n_n none _ _ (constant (F := Ideal) S256x64 .f32 0x00000000#32)) (ix2 r j') = _
    refine (proj_tile _ _ r j').trans (Finset.sum_congr rfl fun d _ => ?_)
    refine congrArg₂ (· * ·) ?_ rfl
    show (shapeCast S256x1024 x6 shapeCasts_S1x256x1024_S256x1024) (ix2 r d) = _
    exact shapeCast_1ab_ab_apply x6 _ r d
  · rfl

end Cert.Attn.Ker

end
-- ==== Proof.KernelRow.lean ====
/-
  A grid point's output row is the specification's row.

  If the tile's row r holds token (b, t), and the carried buffers hold batch b's extended keys and values, then the
  body's output at (r, j) is 'sum the weighted values, then divide' of the specification at (b, t, j): the same sums,
  the same maximum, the same exponentials, term by term.
-/
import proofs.«158825_j27247272526054_2_alg».proof.Proof.KernelAttend

noncomputable section

namespace Cert.Attn.Ker

open Cert.KernelIdeal.Gen
open Idealize.ShloMosaic Idealize.ShloMosaic.ValueIdx

theorem row_eq (x6 : Vec Ideal Cert.KernelIdeal.S1x256x1024 .f32) (wq : Vec Ideal Cert.KernelIdeal.S1024x64 .f32)
    (KK VV : Vec Ideal Cert.KernelIdeal.S2112x64 .bf16)
    (X : Cert.Attn.S8x2048x1024.Idx → EReal) (Wk Wv : Cert.Attn.S1024x64.Idx → EReal) (MEM : Cert.Attn.S64x64.Idx → EReal)
    (b : Fin 8) (t : Fin 2048) (u : Fin 1) (r : Fin 256) (j : Fin 64)
    (hx : ∀ d : Fin 1024, x6 (ix3 (0 : Fin 1) r d) = X (ix3 b t d))
    (hK : ∀ (s : Fin 2112) (j' : Fin 64), KK (ix2 s j') = ext X MEM Wk b s j')
    (hV : ∀ (s : Fin 2112) (j' : Fin 64), VV (ix2 s j') = ext X MEM Wv b s j') :
    k0_pay7 x6 wq KK VV (ix3 u r j) = outSumThenDiv X wq Wk Wv MEM b t j := by
  rw [pay7_apply]
  unfold attendRow rowMaxOf outSumThenDiv denom pexp rowMax score proj
  simp only [hx, hK, hV]

end Cert.Attn.Ker

end
-- ==== Proof.KernelScratch.lean ====
/-
  The two carried buffers after a first grid point, read at an index.

  A first point stores two rectangles into each carried buffer: rows 0..2047 receive the batch's 2048 token rows
  times a projection (the sum over the 1024 input features), rows 2048..2111 receive the 64 memory rows. The two
  rectangles are disjoint, so a row below 2048 reads the first store's payload at (s, j) and a row from 2048 on reads
  the second store's payload at (s - 2048, j). At the ideal values a change of float format is the identity and a
  reshape to the same shape moves nothing, so the payloads are the product's sum and the memory row themselves.
-/
import proofs.«158825_j27247272526054_2_alg».proof.Proof.KernelPieces
import proofs.«158825_j27247272526054_2_alg».proof.Proof.KernelStages
import proofs.«158825_j27247272526054_2_alg».proof.Proof.AttnSpec
import Idealize.ShloMosaic.Lib.Pipeline.Value
import Idealize.ShloMosaic.Lib.ValueIdx
import Idealize.ShloMosaic.Lib.ValueLayout

noncomputable section

namespace Cert.Attn.Ker

open Cert.KernelIdeal Cert.KernelIdeal.Gen
open Idealize.ShloMosaic Idealize.ShloMosaic.ValueIdx

/-! ## The payloads at an index -/

/-- The batch's token block [1, 2048, 1024] seen as [2048, 1024]: row s, feature d. -/
theorem pay1_apply (x0 : Vec Ideal Cert.KernelIdeal.S1x2048x1024 .f32) (s : Fin 2048) (d : Fin 1024) :
    k0_pay1 x0 (ix2 s d) = x0 (ix3 (0 : Fin 1) s d) := by
  unfold k0_pay1
  exact shapeCast_1ab_ab_apply x0 _ s d

/-- The projected token rows: the sum over the 1024 input features. -/
theorem proj_pay (x0 : Vec Ideal Cert.KernelIdeal.S1x2048x1024 .f32) (w : Vec Ideal Cert.KernelIdeal.S1024x64 .f32)
    (s : Fin 2048) (j : Fin 64) :
    matmul dot_S2048x1024_S1024x64_S2048x64_1_0_0_1_n_n none (k0_pay1 x0)
        (truncf .bf16 (w : FVec Ideal Cert.KernelIdeal.S1024x64 .f32) bitsLt_bf16_f32)
        (constant Cert.KernelIdeal.S2048x64 .f32 0x00000000#32) (ix2 s j)
      = ∑ d : Fin 1024, x0 (ix3 (0 : Fin 1) s d) * w (ix2 d j) :=
  (proj_all (k0_pay1 x0) _ s j).trans
    (Finset.sum_congr rfl fun d _ => congrArg (· * w (ix2 d j)) (pay1_apply x0 s d))

theorem pay2_apply (x0 : Vec Ideal Cert.KernelIdeal.S1x2048x1024 .f32) (w : Vec Ideal Cert.KernelIdeal.S1024x64 .f32)
    (s : Fin 2048) (j : Fin 64) :
    k0_pay2 x0 w (ix2 s j) = ∑ d : Fin 1024, x0 (ix3 (0 : Fin 1) s d) * w (ix2 d j) := by
  unfold k0_pay2
  refine (congrFun (shapeCast_self _ _) (ix2 s j)).trans ?_
  exact proj_pay x0 w s j

theorem pay3_apply (x0 : Vec Ideal Cert.KernelIdeal.S1x2048x1024 .f32) (w : Vec Ideal Cert.KernelIdeal.S1024x64 .f32)
    (s : Fin 2048) (j : Fin 64) :
    k0_pay3 x0 w (ix2 s j) = ∑ d : Fin 1024, x0 (ix3 (0 : Fin 1) s d) * w (ix2 d j) := by
  unfold k0_pay3
  refine (congrFun (shapeCast_self _ _) (ix2 s j)).trans ?_
  exact proj_pay x0 w s j

/-- The memory rows pass through a reshape to their own shape and a change of format: unchanged. -/
theorem pay4_apply (mem : Vec Ideal Cert.KernelIdeal.S64x64 .f32) (y : Cert.KernelIdeal.S64x64.Idx) :
    k0_pay4 mem y = mem y := by
  unfold k0_pay4
  exact congrFun (shapeCast_self mem _) y

theorem pay5_apply (mem : Vec Ideal Cert.KernelIdeal.S64x64 .f32) (y : Cert.KernelIdeal.S64x64.Idx) :
    k0_pay5 mem y = mem y := by
  unfold k0_pay5
  exact (congrFun (shapeCast_self _ _) y).trans (pay4_apply mem y)

theorem pay6_apply (mem : Vec Ideal Cert.KernelIdeal.S64x64 .f32) (y : Cert.KernelIdeal.S64x64.Idx) :
    k0_pay6 mem y = mem y := by
  unfold k0_pay6
  exact (congrFun (shapeCast_self _ _) y).trans (pay4_apply mem y)

/-! ## The two stores' rectangles -/

/-- A row below 2048 is outside the rectangle of rows 2048..2111. -/
theorem not_mem_low (s : Fin 2112) (j : Fin 64) (h : s.val < 2048) :
    (ix2 s j : Cert.KernelIdeal.S2112x64.Idx) ∉
      (Rect.unit (s := Cert.KernelIdeal.S2112x64) ![2048, 0] Cert.KernelIdeal.S64x64.size
        Gen.inb_S2112x64_S64x64_2048_0).set := fun hm => by
  have h0 := (Rect.mem_set_unit.1 hm (0 : Fin 2)).1
  have h1 : 2048 ≤ s.val := h0
  omega

/-- A row below 2048 is the first rectangle's place (s, j). -/
theorem emb_high (s : Fin 2112) (j : Fin 64) (h : s.val < 2048) :
    (ix2 s j : Cert.KernelIdeal.S2112x64.Idx) =
      (Rect.unit (s := Cert.KernelIdeal.S2112x64) ![0, 0] Cert.KernelIdeal.S2048x64.size
        Gen.inb_S2112x64_S2048x64_0_0).emb (ix2 (⟨s.val, h⟩ : Fin 2048) j) :=
  funext fun a => Fin.ext (match a with
    | ⟨0, _⟩ => by show s.val = 0 + 1 * s.val; omega
    | ⟨1, _⟩ => by show j.val = 0 + 1 * j.val; omega)

/-- A row from 2048 on is the second rectangle's place (s - 2048, j). -/
theorem emb_low (s : Fin 2112) (j : Fin 64) (h : ¬s.val < 2048) :
    (ix2 s j : Cert.KernelIdeal.S2112x64.Idx) =
      (Rect.unit (s := Cert.KernelIdeal.S2112x64) ![2048, 0] Cert.KernelIdeal.S64x64.size
        Gen.inb_S2112x64_S64x64_2048_0).emb (ix2 (⟨s.val - 2048, by omega⟩ : Fin 64) j) :=
  funext fun a => Fin.ext (match a with
    | ⟨0, _⟩ => by show s.val = 2048 + 1 * (s.val - 2048); omega
    | ⟨1, _⟩ => by show j.val = 0 + 1 * j.val; omega)

/-! ## Two stores read at an index -/

/-- The rectangle of rows 2048..2111, where the memory rows are stored. -/
abbrev rectMem : Rect Cert.KernelIdeal.S2112x64 :=
  Rect.unit (s := Cert.KernelIdeal.S2112x64) ![2048, 0] Cert.KernelIdeal.S64x64.size Gen.inb_S2112x64_S64x64_2048_0

/-- The rectangle of rows 0..2047, where the projected token rows are stored. -/
abbrev rectTok : Rect Cert.KernelIdeal.S2112x64 :=
  Rect.unit (s := Cert.KernelIdeal.S2112x64) ![0, 0] Cert.KernelIdeal.S2048x64.size Gen.inb_S2112x64_S2048x64_0_0

/-- After the two stores, a row below 2048 holds the token store's payload at (s, j). -/
theorem two_stores_tok (wm : FVec Ideal Cert.KernelIdeal.S64x64 .bf16) (wt : FVec Ideal Cert.KernelIdeal.S2048x64 .bf16)
    (s : Fin 2112) (j : Fin 64) (h : s.val < 2048) :
    View.canon (Val := Elt Ideal) (s := Cert.KernelIdeal.S2112x64) (e := EltTy.bf16)
      [⟨rectMem, wm⟩, ⟨rectTok, wt⟩] (ix2 s j) = wt (ix2 (⟨s.val, h⟩ : Fin 2048) j) := by
  refine (View.canon_cons_of_not_mem (Val := Elt Ideal) (s := Cert.KernelIdeal.S2112x64) (e := EltTy.bf16)
    ⟨rectMem, wm⟩ [⟨rectTok, wt⟩] (not_mem_low s j h)).trans ?_
  refine (congrArg (View.canon (Val := Elt Ideal) (s := Cert.KernelIdeal.S2112x64) (e := EltTy.bf16) [⟨rectTok, wt⟩])
    (emb_high s j h)).trans ?_
  exact View.canon_cons_emb (Val := Elt Ideal) (s := Cert.KernelIdeal.S2112x64) (e := EltTy.bf16) rectTok wt []
    (ix2 (⟨s.val, h⟩ : Fin 2048) j)

/-- After the two stores, a row from 2048 on holds the memory store's payload at (s - 2048, j). -/
theorem two_stores_mem (wm : FVec Ideal Cert.KernelIdeal.S64x64 .bf16) (wt : FVec Ideal Cert.KernelIdeal.S2048x64 .bf16)
    (s : Fin 2112) (j : Fin 64) (h : ¬s.val < 2048) :
    View.canon (Val := Elt Ideal) (s := Cert.KernelIdeal.S2112x64) (e := EltTy.bf16)
      [⟨rectMem, wm⟩, ⟨rectTok, wt⟩] (ix2 s j) = wm (ix2 (⟨s.val - 2048, by omega⟩ : Fin 64) j) := by
  refine (congrArg (View.canon (Val := Elt Ideal) (s := Cert.KernelIdeal.S2112x64) (e := EltTy.bf16)
    [⟨rectMem, wm⟩, ⟨rectTok, wt⟩]) (emb_low s j h)).trans ?_
  exact View.canon_cons_emb (Val := Elt Ideal) (s := Cert.KernelIdeal.S2112x64) (e := EltTy.bf16) rectMem wm
    [⟨rectTok, wt⟩] (ix2 (⟨s.val - 2048, by omega⟩ : Fin 64) j)

/-! ## The carried buffers -/

/-- The carried keys after a first point: a projected token row below 2048, a memory row from 2048 on. -/
theorem keysOf_apply (x0 : Vec Ideal Cert.KernelIdeal.S1x2048x1024 .f32) (w : Vec Ideal Cert.KernelIdeal.S1024x64 .f32)
    (mem : Vec Ideal Cert.KernelIdeal.S64x64 .f32) (s : Fin 2112) (j : Fin 64) :
    keysOf x0 w mem (ix2 s j) =
      if h : s.val < 2048 then ∑ d : Fin 1024, x0 (ix3 (0 : Fin 1) (⟨s.val, h⟩ : Fin 2048) d) * w (ix2 d j)
      else mem (ix2 (⟨s.val - 2048, by omega⟩ : Fin 64) j) := by
  unfold keysOf
  by_cases h : s.val < 2048
  · rw [dif_pos h]
    exact (two_stores_tok (k0_pay5 mem) (k0_pay2 x0 w) s j h).trans (pay2_apply x0 w ⟨s.val, h⟩ j)
  · rw [dif_neg h]
    exact (two_stores_mem (k0_pay5 mem) (k0_pay2 x0 w) s j h).trans (pay5_apply mem _)

/-- The carried values after a first point, likewise. -/
theorem valsOf_apply (x0 : Vec Ideal Cert.KernelIdeal.S1x2048x1024 .f32) (w : Vec Ideal Cert.KernelIdeal.S1024x64 .f32)
    (mem : Vec Ideal Cert.KernelIdeal.S64x64 .f32) (s : Fin 2112) (j : Fin 64) :
    valsOf x0 w mem (ix2 s j) =
      if h : s.val < 2048 then ∑ d : Fin 1024, x0 (ix3 (0 : Fin 1) (⟨s.val, h⟩ : Fin 2048) d) * w (ix2 d j)
      else mem (ix2 (⟨s.val - 2048, by omega⟩ : Fin 64) j) := by
  unfold valsOf
  by_cases h : s.val < 2048
  · rw [dif_pos h]
    exact (two_stores_tok (k0_pay6 mem) (k0_pay3 x0 w) s j h).trans (pay3_apply x0 w ⟨s.val, h⟩ j)
  · rw [dif_neg h]
    exact (two_stores_mem (k0_pay6 mem) (k0_pay3 x0 w) s j h).trans (pay6_apply mem _)

end Cert.Attn.Ker

end
-- ==== Proof.KernelGeom.lean ====
/-
  Where the kernel's windows sit: pure index arithmetic, no floats.

  The grid has 64 points, point t at batch t / 8 and row block t % 8. The token window stages the whole [2048, 1024] slab
  of batch t / 8; the three weight matrices and the memory rows are staged whole at every point; inside the body the
  token tile is rows (t % 8) * 256 onwards of the staged slab; the result window's block at point t is rows
  (t % 8) * 256 onwards of batch t / 8, every point writes its block back, and the 64 blocks cover the result array.
  The printed index maps are decided once over the 64 points; a block's coordinate is then its index times the block
  size plus the coordinate inside the block.
-/
import proofs.«158825_j27247272526054_2_alg».proof.Proof.Gen.KernelIdeal.Value
import proofs.«158825_j27247272526054_2_alg».proof.Proof.KernelPieces
import Idealize.ShloMosaic.Lib.ValueIdx

set_option maxRecDepth 16384

noncomputable section

namespace Cert.Attn.Ker

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ)

/-! ## The printed index maps, decided over the 64 grid points -/

/-- Window 0 (the tokens) is at batch t / 8, whole in the other two axes. -/
theorem idx_w0 : ∀ t : Fin cfg0.N, win0_0.index t (0 : Fin 3) = t.val / 8 ∧ win0_0.index t (1 : Fin 3) = 0 ∧ win0_0.index t (2 : Fin 3) = 0 :=
  (by decide +kernel : ∀ t : Fin grid0.N, _)

/-- Windows 1 to 4 (the three matrices and the memory rows) do not move. -/
theorem idx_w1 : ∀ t : Fin cfg0.N, win0_1.index t (0 : Fin 2) = 0 ∧ win0_1.index t (1 : Fin 2) = 0 :=
  (by decide +kernel : ∀ t : Fin grid0.N, _)
theorem idx_w2 : ∀ t : Fin cfg0.N, win0_2.index t (0 : Fin 2) = 0 ∧ win0_2.index t (1 : Fin 2) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)

/-- Window 5 (the result) is at batch t / 8 and row block t % 8. -/
theorem idx_w5 : ∀ t : Fin cfg0.N, win0_5.index t (0 : Fin 3) = t.val / 8 ∧ win0_5.index t (1 : Fin 3) = t.val % 8 ∧ win0_5.index t (2 : Fin 3) = 0 :=
  (by decide +kernel : ∀ t : Fin grid0.N, _)

/-- The body's load of its token rows starts at row (t % 8) * 256 of the staged block. -/
theorem off1_at : ∀ t : Fin cfg0.N, k0_off1 (grid0.coords t) = ![0, (t.val % 8) * 256, 0] :=
  (by decide +kernel : ∀ t : Fin grid0.N, _)

theorem t_lt (t : Fin cfg0.N) : t.val < 64 := lt_of_lt_of_eq t.isLt (show cfg0.N = 64 from N_0)

/-! ## The input blocks -/

/-- Batch b's tokens, as the block a point of that batch stages. -/
def xb (c : Dev nD) (b : Fin 8) : Vec F S1x2048x1024 .f32 :=
  fun y => V m c main_arg0 (ValueIdx.ix3 b (⟨(y 1).val, (y 1).isLt⟩ : Fin 2048) (⟨(y 2).val, (y 2).isLt⟩ : Fin 1024))

theorem iblk0_eq (c : Dev nD) (t : Fin cfg0.N) :
    (iblk m c 0 t : Vec F S1x2048x1024 .f32) = xb m c ⟨t.val / 8, by have := t_lt t; omega⟩ := by
  obtain ⟨e0, e1, e2⟩ := idx_w0 t
  funext y
  unfold iblk xb
  rw [View.read_apply]
  show V m c main_arg0 _ = V m c main_arg0 _
  refine congrArg (V m c main_arg0) ?_
  funext a
  apply Fin.ext
  match a with
  | ⟨0, _⟩ => show win0_0.index t (0 : Fin 3) * 1 + 1 * (y 0).val = t.val / 8; have hy : (y 0).val < 1 := (y 0).isLt; omega
  | ⟨1, _⟩ => show win0_0.index t (1 : Fin 3) * 2048 + 1 * (y 1).val = (y 1).val; omega
  | ⟨2, _⟩ => show win0_0.index t (2 : Fin 3) * 1024 + 1 * (y 2).val = (y 2).val; omega

theorem iblk1_eq (c : Dev nD) (t : Fin cfg0.N) : (iblk m c 1 t : Vec F S1024x64 .f32) = V m c main_arg2 := by
  obtain ⟨e0, e1⟩ := idx_w1 t
  funext y
  unfold iblk
  rw [View.read_apply]
  show V m c main_arg2 _ = V m c main_arg2 y
  refine congrArg (V m c main_arg2) ?_
  funext a
  apply Fin.ext
  match a with
  | ⟨0, _⟩ => show win0_1.index t (0 : Fin 2) * 1024 + 1 * (y 0).val = (y 0).val; omega
  | ⟨1, _⟩ => show win0_1.index t (1 : Fin 2) * 64 + 1 * (y 1).val = (y 1).val; omega

theorem iblk2_eq (c : Dev nD) (t : Fin cfg0.N) : (iblk m c 2 t : Vec F S1024x64 .f32) = V m c main_arg3 := by
  obtain ⟨e0, e1⟩ := idx_w2 t
  funext y
  unfold iblk
  rw [View.read_apply]
  show V m c main_arg3 _ = V m c main_arg3 y
  refine congrArg (V m c main_arg3) ?_
  funext a
  apply Fin.ext
  match a with
  | ⟨0, _⟩ => show win0_2.index t (0 : Fin 2) * 1024 + 1 * (y 0).val = (y 0).val; omega
  | ⟨1, _⟩ => show win0_2.index t (1 : Fin 2) * 64 + 1 * (y 1).val = (y 1).val; omega

theorem iblk3_eq (c : Dev nD) (t : Fin cfg0.N) : (iblk m c 3 t : Vec F S1024x64 .f32) = V m c main_arg4 := by
  obtain ⟨e0, e1⟩ := idx_w3 t
  funext y
  unfold iblk
  rw [View.read_apply]
  show V m c main_arg4 _ = V m c main_arg4 y
  refine congrArg (V m c main_arg4) ?_
  funext a
  apply Fin.ext
  match a with
  | ⟨0, _⟩ => show win0_3.index t (0 : Fin 2) * 1024 + 1 * (y 0).val = (y 0).val; omega
  | ⟨1, _⟩ => show win0_3.index t (1 : Fin 2) * 64 + 1 * (y 1).val = (y 1).val; omega

theorem iblk4_eq (c : Dev nD) (t : Fin cfg0.N) : (iblk m c 4 t : Vec F Cert.KernelIdeal.S64x64 .f32) = V m c main_v17 := by
  obtain ⟨e0, e1⟩ := idx_w4 t
  funext y
  unfold iblk
  rw [View.read_apply]
  show V m c main_v17 _ = V m c main_v17 y
  refine congrArg (V m c main_v17) ?_
  funext a
  apply Fin.ext
  match a with
  | ⟨0, _⟩ => show win0_4.index t (0 : Fin 2) * 64 + 1 * (y 0).val = (y 0).val; omega
  | ⟨1, _⟩ => show win0_4.index t (1 : Fin 2) * 64 + 1 * (y 1).val = (y 1).val; omega

/-! ## The body's token tile -/

/-- Point t's tile of a staged block: rows (t % 8) * 256 onwards. -/
theorem tile_apply (t : Fin cfg0.N) (x0 : Vec F S1x2048x1024 .f32) (u : Fin 1) (r : Fin 256) (d : Fin 1024) :
    tile (grid0.coords t) x0 (ValueIdx.ix3 u r d)
      = x0 (ValueIdx.ix3 (0 : Fin 1) (⟨(t.val % 8) * 256 + r.val, by have := r.isLt; omega⟩ : Fin 2048) d) := by
  have ho := off1_at t
  unfold tile
  show x0 ((Rect.unit (s := S1x2048x1024) (k0_off1 (grid0.coords t)) S1x256x1024.size (Gen.k0_off1_inb (grid0.coords t))).emb
    (ValueIdx.ix3 u r d)) = _
  refine congrArg x0 ?_
  funext a
  apply Fin.ext
  match a with
  | ⟨0, _⟩ =>
    show k0_off1 (grid0.coords t) 0 + 1 * u.val = 0
    rw [ho]; show 0 + 1 * u.val = 0; have := u.isLt; omega
  | ⟨1, _⟩ =>
    show k0_off1 (grid0.coords t) 1 + 1 * r.val = (t.val % 8) * 256 + r.val
    rw [ho]; show (t.val % 8) * 256 + 1 * r.val = (t.val % 8) * 256 + r.val; omega
  | ⟨2, _⟩ =>
    show k0_off1 (grid0.coords t) 2 + 1 * d.val = d.val
    rw [ho]; show 0 + 1 * d.val = d.val; omega

/-! ## The result window -/

/-- Where point t's result block sits in the result array. -/
theorem emb5 (t : Fin cfg0.N) (u : Fin 1) (r : Fin 256) (j : Fin 64) :
    ((cfg0.win 5).blk t).view.emb (ValueIdx.ix3 u r j)
      = ValueIdx.ix3 (⟨t.val / 8, by have := t_lt t; omega⟩ : Fin 8)
          (⟨(t.val % 8) * 256 + r.val, by have := r.isLt; omega⟩ : Fin 2048) j := by
  obtain ⟨e0, e1, e2⟩ := idx_w5 t
  funext a
  apply Fin.ext
  match a with
  | ⟨0, _⟩ => show win0_5.index t (0 : Fin 3) * 1 + 1 * u.val = t.val / 8; have := u.isLt; omega
  | ⟨1, _⟩ => show win0_5.index t (1 : Fin 3) * 256 + 1 * r.val = (t.val % 8) * 256 + r.val; omega
  | ⟨2, _⟩ => show win0_5.index t (2 : Fin 3) * 64 + 1 * j.val = j.val; omega

/-- An index of the result array is in point t's block iff each coordinate is in the block's range on its axis. -/
theorem mem_blk5 (t : Fin cfg0.N) (i : S8x2048x64.Idx) :
    i ∈ ((cfg0.win 5).blk t).view.set ↔ ∀ a : Fin 3, win0_5.index t a * S1x256x64.size a ≤ (i a).val
      ∧ (i a).val < win0_5.index t a * S1x256x64.size a + S1x256x64.size a := by
  show i ∈ ((View.whole main_v18).slice (win0_5.rect t)).set ↔ _
  rw [View.set_slice_whole, Rect.mem_set_unit]
  exact Iff.rfl

/-- Every index of the result array is in the block of the point of its batch and row block, which is written back. -/
theorem cover5 (i : S8x2048x64.Idx) :
    ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 64 := (i 2).isLt
  have hN : cfg0.N = 64 := N_0
  obtain ⟨t, ht⟩ : ∃ t : Fin cfg0.N, t.val = 8 * (i 0).val + (i 1).val / 256 :=
    ⟨⟨8 * (i 0).val + (i 1).val / 256, by omega⟩, rfl⟩
  obtain ⟨e0, e1, e2⟩ := idx_w5 t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 64 ≤ (i 2).val ∧ (i 2).val < win0_5.index t (2 : Fin 3) * 64 + 64; omega

end Cert.Attn.Ker

end
-- ==== Proof.KernelMem.lean ====
/-
  What the kernel's region finds in the array of its fifth operand.

  Before the region the program runs the same forty-four host operations as the reference to normalise the memory rows;
  evaluated over the launch memory they leave, in that operand's array, the shared term of the three arguments it reads.
-/
import proofs.«158825_j27247272526054_2_alg».proof.Proof.Gen.KernelIdeal.Frame
import proofs.«158825_j27247272526054_2_alg».proof.Proof.AttnSpec
import Idealize.ShloMosaic.Lib.StableHlo.Run

noncomputable section

namespace Cert.Attn.Ker

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

-- the reductions are compared as they stand, never opened
attribute [local irreducible] Host.reduceAdd Host.reduce in
/-- The region finds the normalised memory rows of the arguments in its fifth operand's array. -/
theorem V_mem (c : Dev nD) :
    V m c main_v17 = Cert.Attn.memTerm (m ((c : Thread nD τ).loc main_arg1)) (m ((c : Thread nD τ).loc main_arg5))
      (m ((c : Thread nD τ).loc main_arg6)) := by
  dsimp only [V]
  simp only [hostOps0, hostOps0_1, hostOps0_2, List.flatten_cons, List.flatten_nil, List.append_nil, List.cons_append,
    List.nil_append]
  after_results_simp
  rfl

end Cert.Attn.Ker

end
-- ==== Proof.KernelValue.lean ====
/-
  The kernel's result array, as one function of the argument arrays.

  The grid is 8 batches by 8 query tiles, run batch by batch. By induction on the point, the two carried buffers hold,
  after any point of batch b, the batch's extended keys and values: the batch's first point stores them, the later
  points leave them. So every point (b, qi) writes back the attention of its 256 token rows against batch b's extended
  keys and values, which is the specification's 'sum then divide' at rows 256 qi .. 256 qi + 255 of batch b; the 64
  blocks tile the result array.
-/
import proofs.«158825_j27247272526054_2_alg».proof.Proof.Gen.KernelIdeal.Value
import proofs.«158825_j27247272526054_2_alg».proof.Proof.KernelPieces
import proofs.«158825_j27247272526054_2_alg».proof.Proof.KernelRow
import proofs.«158825_j27247272526054_2_alg».proof.Proof.KernelScratch
import proofs.«158825_j27247272526054_2_alg».proof.Proof.KernelGeom
import proofs.«158825_j27247272526054_2_alg».proof.Proof.KernelMem

set_option maxRecDepth 16384

noncomputable section

namespace Cert.Attn.Ker

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem batch_lt (n : ℕ) (h : n < cfg0.N) : n / 8 < 8 := by
  have : cfg0.N = 64 := N_0
  omega

/-- Batch b's extended keys, as the carried buffer holds them. -/
abbrev keysB (c : Dev nD) (b : Fin 8) : Vec Ideal Cert.KernelIdeal.S2112x64 .bf16 :=
  keysOf (xb m c b) (V m c main_arg3) (V m c main_v17)

/-- Batch b's extended values, as the carried buffer holds them. -/
abbrev valsB (c : Dev nD) (b : Fin 8) : Vec Ideal Cert.KernelIdeal.S2112x64 .bf16 :=
  valsOf (xb m c b) (V m c main_arg4) (V m c main_v17)

/-- After any point, the carried buffers hold its batch's extended keys and values. -/
theorem carried (c : Dev nD) : ∀ (n : ℕ) (h : n < cfg0.N),
    (outsAt0 m c n h).2.1 = keysB m c ⟨n / 8, batch_lt n h⟩ ∧ (outsAt0 m c n h).2.2 = valsB m c ⟨n / 8, batch_lt n h⟩
  | 0, h => by
    have h0 : (⟨0, h⟩ : Fin cfg0.N).val % 8 = 0 := rfl
    rw [outsAt0_A m c ⟨0, h⟩ h0]
    dsimp only
    rw [keys_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) (iblk m c 0 ⟨0, h⟩) (iblk m c 1 ⟨0, h⟩) (iblk m c 2 ⟨0, h⟩) (iblk m c 3 ⟨0, h⟩) (iblk m c 4 ⟨0, h⟩) ((hcond0_0 ⟨0, h⟩).mpr h0), vals_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) (iblk m c 0 ⟨0, h⟩) (iblk m c 1 ⟨0, h⟩) (iblk m c 2 ⟨0, h⟩) (iblk m c 3 ⟨0, h⟩) (iblk m c 4 ⟨0, h⟩) ((hcond0_0 ⟨0, h⟩).mpr h0),
      iblk0_eq m c ⟨0, h⟩, iblk2_eq m c ⟨0, h⟩, iblk3_eq m c ⟨0, h⟩, iblk4_eq m c ⟨0, h⟩]
    exact ⟨rfl, rfl⟩
  | n + 1, h => by
    by_cases h0 : (⟨n + 1, h⟩ : Fin cfg0.N).val % 8 = 0
    · rw [outsAt0_A m c ⟨n + 1, h⟩ h0]
      dsimp only
      rw [keys_first c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) ((hcond0_0 ⟨n + 1, h⟩).mpr h0), vals_first c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) ((hcond0_0 ⟨n + 1, h⟩).mpr h0),
        iblk0_eq m c ⟨n + 1, h⟩, iblk2_eq m c ⟨n + 1, h⟩, iblk3_eq m c ⟨n + 1, h⟩, iblk4_eq m c ⟨n + 1, h⟩]
      exact ⟨rfl, rfl⟩
    · rw [outsAt0_B m c ⟨n + 1, h⟩ h0]
      dsimp only
      unfold sout0_B_0 sout0_B_1
      have ih := carried c n (Nat.lt_of_succ_lt h)
      have hb : (⟨(n + 1) / 8, batch_lt (n + 1) h⟩ : Fin 8) = ⟨n / 8, batch_lt n (Nat.lt_of_succ_lt h)⟩ :=
        Fin.ext (by dsimp only at h0 ⊢; omega)
      rw [hb]
      exact ih

/-- What any point leaves in the output block: the attention of its tile against its batch's extended keys and values. -/
theorem out_block (c : Dev nD) (t : Fin cfg0.N) :
    (outsAt0 m c t.val t.isLt).1
      = k0_pay7 (tile (grid0.coords t) (xb m c ⟨t.val / 8, batch_lt t.val t.isLt⟩)) (V m c main_arg2)
          (keysB m c ⟨t.val / 8, batch_lt t.val t.isLt⟩) (valsB m c ⟨t.val / 8, batch_lt t.val t.isLt⟩) := by
  by_cases h0 : t.val % 8 = 0
  · rw [outsAt0_A m c t h0]
    dsimp only
    rw [out_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) ((hcond0_0 t).mpr h0),
      iblk0_eq m c t, iblk1_eq m c t, iblk2_eq m c t, iblk3_eq m c t, iblk4_eq m c t]
  · rw [outsAt0_B m c t h0]
    dsimp only
    rw [out_later c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (fun h => h0 ((hcond0_0 t).mp h)) _ _,
      (carried m c (t.val - 1) (Nat.lt_of_le_of_lt (Nat.sub_le _ _) t.isLt)).1,
      (carried m c (t.val - 1) (Nat.lt_of_le_of_lt (Nat.sub_le _ _) t.isLt)).2,
      iblk0_eq m c t, iblk1_eq m c t]
    have hb : (⟨(t.val - 1) / 8, batch_lt (t.val - 1) (Nat.lt_of_le_of_lt (Nat.sub_le _ _) t.isLt)⟩ : Fin 8)
        = ⟨t.val / 8, batch_lt t.val t.isLt⟩ := Fin.ext (by dsimp only; omega)
    rw [hb]

/-- The result array, index by index: 'sum the weighted values, then divide' of the arrays as the region finds them. -/
def G (c : Dev nD) : Cert.KernelIdeal.S8x2048x64.Idx → EReal := fun i =>
  outSumThenDiv (V m c main_arg0) (V m c main_arg2) (V m c main_arg3) (V m c main_arg4) (V m c main_v17) (i 0) (i 1) (i 2)

/-- What point t writes back is block t of G. -/
theorem flushed_eq (c : Dev nD) (t : Fin cfg0.N) :
    (dats m 0 c).flushed 5 t = ((cfg0.win 5).blk t).view.read (Elt Ideal) (G m c) := by
  rw [flushed5 m c t, out_block m c t]
  refine funext fun (y : Cert.KernelIdeal.S1x256x64.Idx) => ?_
  obtain ⟨u, r, j, rfl⟩ : ∃ (u : Fin 1) (r : Fin 256) (j : Fin 64), y = ix3 u r j := ⟨y 0, y 1, y 2, eq_ix3 y⟩
  show k0_pay7 (F := Ideal) _ _ _ _ (ix3 u r j) = G m c (((cfg0.win 5).blk t).view.emb (ix3 u r j))
  rw [emb5 t u r j]
  exact row_eq _ _ _ _ (V m c main_arg0) (V m c main_arg3) (V m c main_arg4) (V m c main_v17)
    ⟨t.val / 8, batch_lt t.val t.isLt⟩ _ u r j
    (fun d => tile_apply t _ (0 : Fin 1) r d)
    (fun s j' => keysOf_apply _ _ _ s j')
    (fun s j' => valsOf_apply _ _ _ s j')

/-- So the result array ends holding G. -/
theorem final (c : Dev nD) : (dats m 0 c).arrAt 5 cfg0.N = G m c :=
  (dats m 0 c).arrAt_eq_of_cover 5 (G m c) (fun t _ => flushed_eq m c t) fun i => cover5 i

/-- The run, read: the result array at G, the arguments unchanged. -/
theorem run : θ_run defs (onTc (τ := τ) (main (F := Ideal))) ⟨m, fun _ => 0, ρ⟩ fun r => ∀ c : Dev nD,
      r.2.mem ((c : Thread nD τ).loc main_v18) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

/-- G over the launch memory: the arrays the region finds are the arguments, and the memory rows their shared term. -/
theorem G_eq (c : Dev nD) (i : Cert.KernelIdeal.S8x2048x64.Idx) :
    G m c i = outSumThenDiv (m ((c : Thread nD τ).loc main_arg0)) (m ((c : Thread nD τ).loc main_arg2))
      (m ((c : Thread nD τ).loc main_arg3)) (m ((c : Thread nD τ).loc main_arg4))
      (Cert.Attn.memTerm (m ((c : Thread nD τ).loc main_arg1)) (m ((c : Thread nD τ).loc main_arg5))
        (m ((c : Thread nD τ).loc main_arg6))) (i 0) (i 1) (i 2) := by
  unfold G
  rw [V_main_arg0, V_main_arg2, V_main_arg3, V_main_arg4, V_mem]

end Cert.Attn.Ker

end
-- ==== Proof.LibHostFold.lean ====
/-
  Two facts about folding a straight line of host operations over buffer contents.

  The contents after a list of operations are a fold over the list, so the fold of a concatenation is the fold of the second
  part from the fold of the first: a long program can be evaluated stretch by stretch, the contents between two stretches a
  variable. And an operation of a called function reads and writes its buffers through a typed reference, which carries
  contents to the buffer's own type and back; the round trip is the identity, and saying so once lets the evaluated term be
  compared with a named one without going through each pair of casts.
-/
import Idealize.ShloMosaic.Lib.StableHlo.Run

namespace Idealize.ShloMosaic.HostFold

open Idealize.ShloMosaic Idealize.ShloMosaic.StableHlo

variable {τ : Topo} {sig : RefSig} {Val : EltTy → Type}

/-- Folding a concatenation of operation lists is folding its parts in order. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Contents carried through a typed reference to its buffer's own type and back are unchanged. -/
theorem ofBuf_toBuf {T : BufTy} (x : TRef sig T) (v : T.Contents Val) : x.ofBuf (x.toBuf v) = v := by
  obtain ⟨r, h, _, _⟩ := x
  subst h
  rfl

end Idealize.ShloMosaic.HostFold
-- ==== Proof.RefTerm.lean ====
/-
  The reference's result as one term of its arguments.

  After the memory rows are normalised (the term 'Cert.Attn.memTerm', shared with the other program), the reference
  computes, in order: one copy of the memory rows per batch; the three projections of the tokens; the keys and the values
  of a batch extended by the memory rows; the scores (queries against extended keys, times 1/8); each row's maximum
  (started from minus infinity, and once more compared with minus infinity); the exponentials of the scores minus
  the row's maximum; each row's sum of them; the weights (each exponential over its row's sum); and the weighted sum of
  the extended values. Each stage is named here, so that the whole can be read at an index stage by stage.
-/
import proofs.«158825_j27247272526054_2_alg».proof.ReferenceIdeal
import proofs.«158825_j27247272526054_2_alg».proof.Proof.Gen.ReferenceIdeal
import proofs.«158825_j27247272526054_2_alg».proof.Proof.AttnSpec

noncomputable section

namespace Cert.Attn.Ref

open Idealize.ShloMosaic Cert.ReferenceIdeal Cert.ReferenceIdeal.Facts₀

/-- The memory rows, one copy per batch. -/
def memB (mem : FVec Ideal Cert.ReferenceIdeal.S64x64 .f32) : FVec Ideal S8x64x64 .f32 :=
  broadcastInDim S8x64x64 ![0, 1, 2] bcast_S1x64x64_S8x64x64_0_1_2
    (broadcastInDim S1x64x64 ![1, 2] bcast_S64x64_S1x64x64_1_2 mem)

/-- A projection of the tokens: the contraction of the 1024 input features with a weight matrix. -/
def projT (x : FVec Ideal Cert.ReferenceIdeal.S8x2048x1024 .f32) (w : FVec Ideal Cert.ReferenceIdeal.S1024x64 .f32) :
    FVec Ideal Cert.ReferenceIdeal.S8x2048x64 .f32 :=
  Host.dotGeneral dot_S8x2048x1024_S1024x64_S8x2048x64_2_0_01_1_n_n none x w

/-- A batch's projected tokens followed by the memory rows. -/
def extT (p : FVec Ideal Cert.ReferenceIdeal.S8x2048x64 .f32) (mb : FVec Ideal S8x64x64 .f32) : FVec Ideal S8x2112x64 .f32 :=
  concatenate S8x2112x64 1 [⟨Cert.ReferenceIdeal.S8x2048x64, p⟩, ⟨S8x64x64, mb⟩] concatenates_S8x2048x64_S8x64x64_S8x2112x64_d1

/-- The scores: queries against extended keys over the 64 features, times 1/8. -/
def scoreT (q : FVec Ideal Cert.ReferenceIdeal.S8x2048x64 .f32) (k : FVec Ideal S8x2112x64 .f32) : FVec Ideal S8x2048x2112 .f32 :=
  mulf (Host.dotGeneral dot_S8x2048x64_S8x2112x64_S8x2048x2112_2_2_1_1_0_0 none q k)
    (broadcastInDim S8x2048x2112 ![] bcast_S_S8x2048x2112 (constant (F := Ideal) Cert.ReferenceIdeal.S_ .f32 0x3E000000#32))

/-- Each row's maximum, started from minus infinity and compared with minus infinity once more. -/
def rowMaxT (s : FVec Ideal S8x2048x2112 .f32) : FVec Ideal S8x2048 .f32 :=
  maximumf (broadcastInDim S8x2048 ![] bcast_S_S8x2048 (constant (F := Ideal) Cert.ReferenceIdeal.S_ .f32 0xFF800000#32))
    (Host.reduce FloatOps.maximumf s (constant (F := Ideal) Cert.ReferenceIdeal.S_ .f32 0xFF800000#32)
      reducesTo_S8x2048x2112_S8x2048_d2 h_S_)

/-- The exponentials of the scores minus their row's maximum. -/
def pexpT (s : FVec Ideal S8x2048x2112 .f32) : FVec Ideal S8x2048x2112 .f32 :=
  Host.exp (subf s
    (broadcastInDim S8x2048x2112 ![0, 1, 2] bcast_S8x2048x1_S8x2048x2112_0_1_2
      (broadcastInDim S8x2048x1 ![0, 1] bcast_S8x2048_S8x2048x1_0_1 (rowMaxT s))))

/-- Each row's sum of exponentials, from zero. -/
def denomT (p : FVec Ideal S8x2048x2112 .f32) : FVec Ideal S8x2048 .f32 :=
  Host.reduceAdd p (constant (F := Ideal) Cert.ReferenceIdeal.S_ .f32 0x00000000#32) reducesTo_S8x2048x2112_S8x2048_d2 h_S_

/-- The weights: each exponential over its row's sum. -/
def weightT (p : FVec Ideal S8x2048x2112 .f32) : FVec Ideal S8x2048x2112 .f32 :=
  Host.divf p
    (broadcastInDim S8x2048x2112 ![0, 1, 2] bcast_S8x2048x1_S8x2048x2112_0_1_2
      (broadcastInDim S8x2048x1 ![0, 1] bcast_S8x2048_S8x2048x1_0_1 (denomT p)))

/-- Everything after the memory rows, as a function of the tokens, the memory rows and the three weight matrices. -/
def attnT (x : FVec Ideal Cert.ReferenceIdeal.S8x2048x1024 .f32) (mem : FVec Ideal Cert.ReferenceIdeal.S64x64 .f32)
    (wq wk wv : FVec Ideal Cert.ReferenceIdeal.S1024x64 .f32) : FVec Ideal Cert.ReferenceIdeal.S8x2048x64 .f32 :=
  Host.dotGeneral dot_S8x2048x2112_S8x2112x64_S8x2048x64_2_1_1_2_0_0 none
    (weightT (pexpT (scoreT (projT x wq) (extT (projT x wk) (memB mem)))))
    (extT (projT x wv) (memB mem))

/-- The reference's result: attention over the tokens and the normalised memory rows. -/
def refTerm (x : FVec Ideal Cert.ReferenceIdeal.S8x2048x1024 .f32) (c : FVec Ideal Cert.ReferenceIdeal.S64x64 .f32)
    (wq wk wv : FVec Ideal Cert.ReferenceIdeal.S1024x64 .f32) (gam bet : FVec Ideal Cert.ReferenceIdeal.S64 .f32) :
    FVec Ideal Cert.ReferenceIdeal.S8x2048x64 .f32 :=
  attnT x (Cert.Attn.memTerm c gam bet) wq wk wv

end Cert.Attn.Ref

end
-- ==== Proof.RefRun.lean ====
/-
  The reference's run, read back as one term of its arguments.

  The reference has no kernel: its program is a straight line of host operations, seventy once the two outlined functions
  (a variance, and inside it a selection) are written out at their calls. The first forty-four normalise the memory rows;
  the remaining twenty-six are the attention over the tokens and those rows. The line is evaluated in two stretches, the
  contents between them a variable: the first stretch leaves the normalised rows (the shared term 'Cert.Attn.memTerm')
  and does not touch the arguments; the second, from any contents, leaves the attention term of the arguments and the
  rows. Every weakly fair execution then terminates with the result at 'refTerm' of the arguments, the arguments unchanged.
-/
import proofs.«158825_j27247272526054_2_alg».proof.ReferenceIdeal
import proofs.«158825_j27247272526054_2_alg».proof.Proof.Gen.ReferenceIdeal
import proofs.«158825_j27247272526054_2_alg».proof.Proof.AttnSpec
import proofs.«158825_j27247272526054_2_alg».proof.Proof.LibHostFold
import proofs.«158825_j27247272526054_2_alg».proof.Proof.RefTerm
import Idealize.ShloMosaic.Lib.StableHlo.Run

noncomputable section

namespace Cert.Attn.Ref

open Cert.ReferenceIdeal Cert.ReferenceIdeal.Facts₀ Idealize.ShloMosaic Idealize.ShloMosaic.TcCoe Idealize.SL.Sem
  Idealize.ShloMosaic.StableHlo

variable {F : FTy → Type} [FloatOps F]

/-! ## The operations -/

/-- The forty-four operations that normalise the memory rows: seven of the program, the twenty-three of the variance
    (its selection's three the last), fourteen more of the program. -/
abbrev opsLN : List (HloOp τ sig (Elt F)) :=
  [ StableHlo.nullary main_cst (constant S_ .f32 0x00000000#32),
    StableHlo.binary main_arg1 main_cst main_v0 ((fun x v => Host.reduceAdd x v reducesTo_S64x64_S64_d1 h_S_) : (⟨S64x64, .f32⟩ : BufTy).Contents (Elt F) → (⟨S_, .f32⟩ : BufTy).Contents (Elt F) → (⟨S64, .f32⟩ : BufTy).Contents (Elt F)),
    StableHlo.unary main_v0 main_v1 (broadcastInDim S64x1 ![0] bcast_S64_S64x1_0 : (⟨S64, .f32⟩ : BufTy).Contents (Elt F) → (⟨S64x1, .f32⟩ : BufTy).Contents (Elt F)),
    StableHlo.nullary main_cst_0 (constant S_ .f32 0x42800000#32),
    StableHlo.unary main_cst_0 main_v2 (broadcastInDim S64x1 ![] bcast_S_S64x1 : (⟨S_, .f32⟩ : BufTy).Contents (Elt F) → (⟨S64x1, .f32⟩ : BufTy).Contents (Elt F)),
    StableHlo.binary main_v1 main_v2 main_v3 (Host.divf : (⟨S64x1, .f32⟩ : BufTy).Contents (Elt F) → (⟨S64x1, .f32⟩ : BufTy).Contents (Elt F) → (⟨S64x1, .f32⟩ : BufTy).Contents (Elt F)),
    StableHlo.nullary main_c (constantI S_ 32 0#32),
    StableHlo.TRef.nullary (.of main_call0_cst : StableHlo.TRef sig ⟨S_, .f32⟩) (constant S_ .f32 0x00000000#32),
    StableHlo.TRef.binary (.of main_arg1 : StableHlo.TRef sig ⟨S64x64, .f32⟩) (.of main_call0_cst : StableHlo.TRef sig ⟨S_, .f32⟩) (.of main_call0_v0 : StableHlo.TRef sig ⟨S64, .f32⟩) (fun x v => Host.reduceAdd x v reducesTo_S64x64_S64_d1 h_S_),
    StableHlo.TRef.unary (.of main_call0_v0 : StableHlo.TRef sig ⟨S64, .f32⟩) (.of main_call0_v1 : StableHlo.TRef sig ⟨S64x1, .f32⟩) (broadcastInDim S64x1 ![0] bcast_S64_S64x1_0),
    StableHlo.TRef.nullary (.of main_call0_cst_0 : StableHlo.TRef sig ⟨S_, .f32⟩) (constant S_ .f32 0x42800000#32),
    StableHlo.TRef.unary (.of main_call0_cst_0 : StableHlo.TRef sig ⟨S_, .f32⟩) (.of main_call0_v2 : StableHlo.TRef sig ⟨S64x1, .f32⟩) (broadcastInDim S64x1 ![] bcast_S_S64x1),
    StableHlo.TRef.binary (.of main_call0_v1 : StableHlo.TRef sig ⟨S64x1, .f32⟩) (.of main_call0_v2 : StableHlo.TRef sig ⟨S64x1, .f32⟩) (.of main_call0_v3 : StableHlo.TRef sig ⟨S64x1, .f32⟩) Host.divf,
    StableHlo.TRef.unary (.of main_call0_v3 : StableHlo.TRef sig ⟨S64x1, .f32⟩) (.of main_call0_v4 : StableHlo.TRef sig ⟨S64x64, .f32⟩) (broadcastInDim S64x64 ![0, 1] bcast_S64x1_S64x64_0_1),
    StableHlo.TRef.binary (.of main_arg1 : StableHlo.TRef sig ⟨S64x64, .f32⟩) (.of main_call0_v4 : StableHlo.TRef sig ⟨S64x64, .f32⟩) (.of main_call0_v5 : StableHlo.TRef sig ⟨S64x64, .f32⟩) subf,
    StableHlo.TRef.binary (.of main_call0_v5 : StableHlo.TRef sig ⟨S64x64, .f32⟩) (.of main_call0_v5 : StableHlo.TRef sig ⟨S64x64, .f32⟩) (.of main_call0_v6 : StableHlo.TRef sig ⟨S64x64, .f32⟩) mulf,
    StableHlo.TRef.unary (.of main_c : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x42800000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S64x64, .f32⟩) (.of main_call0_cst_2 : StableHlo.TRef sig ⟨S_, .f32⟩) (.of main_call0_v9 : StableHlo.TRef sig ⟨S64, .f32⟩) (fun x v => Host.reduceAdd x v reducesTo_S64x64_S64_d1 h_S_),
    StableHlo.TRef.unary (.of main_call0_v9 : StableHlo.TRef sig ⟨S64, .f32⟩) (.of main_call0_v10 : StableHlo.TRef sig ⟨S64x1, .f32⟩) (broadcastInDim S64x1 ![0] bcast_S64_S64x1_0),
    StableHlo.TRef.unary (.of main_call0_v8 : StableHlo.TRef sig ⟨S_, .f32⟩) (.of main_call0_v11 : StableHlo.TRef sig ⟨S64x1, .f32⟩) (broadcastInDim S64x1 ![] bcast_S_S64x1),
    StableHlo.TRef.binary (.of main_call0_v10 : StableHlo.TRef sig ⟨S64x1, .f32⟩) (.of main_call0_v11 : StableHlo.TRef sig ⟨S64x1, .f32⟩) (.of main_call0_v12 : StableHlo.TRef sig ⟨S64x1, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v13 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S64x1, .f32⟩) (broadcastInDim S64x1 ![] bcast_S_S64x1),
    StableHlo.TRef.ternary (.of main_call0_v13 : StableHlo.TRef sig ⟨S_, .i1⟩) (.of main_call0_v12 : StableHlo.TRef sig ⟨S64x1, .f32⟩) (.of main_call0_call0_v1 : StableHlo.TRef sig ⟨S64x1, .f32⟩) (.of main_v4 : StableHlo.TRef sig ⟨S64x1, .f32⟩) (fun p a b => select (broadcastInDim S64x1 ![] bcast_S_S64x1 p) a b),
    StableHlo.unary main_v3 main_v5 (broadcastInDim S64x64 ![0, 1] bcast_S64x1_S64x64_0_1 : (⟨S64x1, .f32⟩ : BufTy).Contents (Elt F) → (⟨S64x64, .f32⟩ : BufTy).Contents (Elt F)),
    StableHlo.binary main_arg1 main_v5 main_v6 (subf : (⟨S64x64, .f32⟩ : BufTy).Contents (Elt F) → (⟨S64x64, .f32⟩ : BufTy).Contents (Elt F) → (⟨S64x64, .f32⟩ : BufTy).Contents (Elt F)),
    StableHlo.nullary main_cst_1 (constant S_ .f32 0x3727C5AC#32),
    StableHlo.unary main_cst_1 main_v7 (broadcastInDim S64x1 ![] bcast_S_S64x1 : (⟨S_, .f32⟩ : BufTy).Contents (Elt F) → (⟨S64x1, .f32⟩ : BufTy).Contents (Elt F)),
    StableHlo.binary main_v4 main_v7 main_v8 (addf : (⟨S64x1, .f32⟩ : BufTy).Contents (Elt F) → (⟨S64x1, .f32⟩ : BufTy).Contents (Elt F) → (⟨S64x1, .f32⟩ : BufTy).Contents (Elt F)),
    StableHlo.unary main_v8 main_v9 (Host.rsqrt : (⟨S64x1, .f32⟩ : BufTy).Contents (Elt F) → (⟨S64x1, .f32⟩ : BufTy).Contents (Elt F)),
    StableHlo.unary main_v9 main_v10 (broadcastInDim S64x64 ![0, 1] bcast_S64x1_S64x64_0_1 : (⟨S64x1, .f32⟩ : BufTy).Contents (Elt F) → (⟨S64x64, .f32⟩ : BufTy).Contents (Elt F)),
    StableHlo.binary main_v6 main_v10 main_v11 (mulf : (⟨S64x64, .f32⟩ : BufTy).Contents (Elt F) → (⟨S64x64, .f32⟩ : BufTy).Contents (Elt F) → (⟨S64x64, .f32⟩ : BufTy).Contents (Elt F)),
    StableHlo.unary main_arg5 main_v12 (broadcastInDim S1x64 ![1] bcast_S64_S1x64_1 : (⟨S64, .f32⟩ : BufTy).Contents (Elt F) → (⟨S1x64, .f32⟩ : BufTy).Contents (Elt F)),
    StableHlo.unary main_v12 main_v13 (broadcastInDim S64x64 ![0, 1] bcast_S1x64_S64x64_0_1 : (⟨S1x64, .f32⟩ : BufTy).Contents (Elt F) → (⟨S64x64, .f32⟩ : BufTy).Contents (Elt F)),
    StableHlo.binary main_v11 main_v13 main_v14 (mulf : (⟨S64x64, .f32⟩ : BufTy).Contents (Elt F) → (⟨S64x64, .f32⟩ : BufTy).Contents (Elt F) → (⟨S64x64, .f32⟩ : BufTy).Contents (Elt F)),
    StableHlo.unary main_arg6 main_v15 (broadcastInDim S1x64 ![1] bcast_S64_S1x64_1 : (⟨S64, .f32⟩ : BufTy).Contents (Elt F) → (⟨S1x64, .f32⟩ : BufTy).Contents (Elt F)),
    StableHlo.unary main_v15 main_v16 (broadcastInDim S64x64 ![0, 1] bcast_S1x64_S64x64_0_1 : (⟨S1x64, .f32⟩ : BufTy).Contents (Elt F) → (⟨S64x64, .f32⟩ : BufTy).Contents (Elt F)),
    StableHlo.binary main_v14 main_v16 main_v17 (addf : (⟨S64x64, .f32⟩ : BufTy).Contents (Elt F) → (⟨S64x64, .f32⟩ : BufTy).Contents (Elt F) → (⟨S64x64, .f32⟩ : BufTy).Contents (Elt F)) ]

/-- The twenty-six operations of the attention. -/
abbrev opsAttn : List (HloOp τ sig (Elt F)) :=
  [ StableHlo.unary main_v17 main_v18 (broadcastInDim S1x64x64 ![1, 2] bcast_S64x64_S1x64x64_1_2 : (⟨S64x64, .f32⟩ : BufTy).Contents (Elt F) → (⟨S1x64x64, .f32⟩ : BufTy).Contents (Elt F)),
    StableHlo.unary main_v18 main_v19 (broadcastInDim S8x64x64 ![0, 1, 2] bcast_S1x64x64_S8x64x64_0_1_2 : (⟨S1x64x64, .f32⟩ : BufTy).Contents (Elt F) → (⟨S8x64x64, .f32⟩ : BufTy).Contents (Elt F)),
    StableHlo.binary main_arg0 main_arg2 main_v20 ((fun l r => Host.dotGeneral dot_S8x2048x1024_S1024x64_S8x2048x64_2_0_01_1_n_n none l r) : (⟨S8x2048x1024, .f32⟩ : BufTy).Contents (Elt F) → (⟨S1024x64, .f32⟩ : BufTy).Contents (Elt F) → (⟨S8x2048x64, .f32⟩ : BufTy).Contents (Elt F)),
    StableHlo.binary main_arg0 main_arg3 main_v21 ((fun l r => Host.dotGeneral dot_S8x2048x1024_S1024x64_S8x2048x64_2_0_01_1_n_n none l r) : (⟨S8x2048x1024, .f32⟩ : BufTy).Contents (Elt F) → (⟨S1024x64, .f32⟩ : BufTy).Contents (Elt F) → (⟨S8x2048x64, .f32⟩ : BufTy).Contents (Elt F)),
    StableHlo.binary main_v21 main_v19 main_v22 ((fun a b => concatenate S8x2112x64 1 [⟨S8x2048x64, a⟩, ⟨S8x64x64, b⟩] concatenates_S8x2048x64_S8x64x64_S8x2112x64_d1) : (⟨S8x2048x64, .f32⟩ : BufTy).Contents (Elt F) → (⟨S8x64x64, .f32⟩ : BufTy).Contents (Elt F) → (⟨S8x2112x64, .f32⟩ : BufTy).Contents (Elt F)),
    StableHlo.binary main_arg0 main_arg4 main_v23 ((fun l r => Host.dotGeneral dot_S8x2048x1024_S1024x64_S8x2048x64_2_0_01_1_n_n none l r) : (⟨S8x2048x1024, .f32⟩ : BufTy).Contents (Elt F) → (⟨S1024x64, .f32⟩ : BufTy).Contents (Elt F) → (⟨S8x2048x64, .f32⟩ : BufTy).Contents (Elt F)),
    StableHlo.binary main_v23 main_v19 main_v24 ((fun a b => concatenate S8x2112x64 1 [⟨S8x2048x64, a⟩, ⟨S8x64x64, b⟩] concatenates_S8x2048x64_S8x64x64_S8x2112x64_d1) : (⟨S8x2048x64, .f32⟩ : BufTy).Contents (Elt F) → (⟨S8x64x64, .f32⟩ : BufTy).Contents (Elt F) → (⟨S8x2112x64, .f32⟩ : BufTy).Contents (Elt F)),
    StableHlo.binary main_v20 main_v22 main_v25 ((fun l r => Host.dotGeneral dot_S8x2048x64_S8x2112x64_S8x2048x2112_2_2_1_1_0_0 none l r) : (⟨S8x2048x64, .f32⟩ : BufTy).Contents (Elt F) → (⟨S8x2112x64, .f32⟩ : BufTy).Contents (Elt F) → (⟨S8x2048x2112, .f32⟩ : BufTy).Contents (Elt F)),
    StableHlo.nullary main_cst_2 (constant S_ .f32 0x3E000000#32),
    StableHlo.unary main_cst_2 main_v26 (broadcastInDim S8x2048x2112 ![] bcast_S_S8x2048x2112 : (⟨S_, .f32⟩ : BufTy).Contents (Elt F) → (⟨S8x2048x2112, .f32⟩ : BufTy).Contents (Elt F)),
    StableHlo.binary main_v25 main_v26 main_v27 (mulf : (⟨S8x2048x2112, .f32⟩ : BufTy).Contents (Elt F) → (⟨S8x2048x2112, .f32⟩ : BufTy).Contents (Elt F) → (⟨S8x2048x2112, .f32⟩ : BufTy).Contents (Elt F)),
    StableHlo.nullary main_cst_3 (constant S_ .f32 0xFF800000#32),
    StableHlo.binary main_v27 main_cst_3 main_v28 ((fun x v => Host.reduce FloatOps.maximumf x v reducesTo_S8x2048x2112_S8x2048_d2 h_S_) : (⟨S8x2048x2112, .f32⟩ : BufTy).Contents (Elt F) → (⟨S_, .f32⟩ : BufTy).Contents (Elt F) → (⟨S8x2048, .f32⟩ : BufTy).Contents (Elt F)),
    StableHlo.nullary main_cst_4 (constant S_ .f32 0xFF800000#32),
    StableHlo.unary main_cst_4 main_v29 (broadcastInDim S8x2048 ![] bcast_S_S8x2048 : (⟨S_, .f32⟩ : BufTy).Contents (Elt F) → (⟨S8x2048, .f32⟩ : BufTy).Contents (Elt F)),
    StableHlo.binary main_v29 main_v28 main_v30 (maximumf : (⟨S8x2048, .f32⟩ : BufTy).Contents (Elt F) → (⟨S8x2048, .f32⟩ : BufTy).Contents (Elt F) → (⟨S8x2048, .f32⟩ : BufTy).Contents (Elt F)),
    StableHlo.unary main_v30 main_v31 (broadcastInDim S8x2048x1 ![0, 1] bcast_S8x2048_S8x2048x1_0_1 : (⟨S8x2048, .f32⟩ : BufTy).Contents (Elt F) → (⟨S8x2048x1, .f32⟩ : BufTy).Contents (Elt F)),
    StableHlo.unary main_v31 main_v32 (broadcastInDim S8x2048x2112 ![0, 1, 2] bcast_S8x2048x1_S8x2048x2112_0_1_2 : (⟨S8x2048x1, .f32⟩ : BufTy).Contents (Elt F) → (⟨S8x2048x2112, .f32⟩ : BufTy).Contents (Elt F)),
    StableHlo.binary main_v27 main_v32 main_v33 (subf : (⟨S8x2048x2112, .f32⟩ : BufTy).Contents (Elt F) → (⟨S8x2048x2112, .f32⟩ : BufTy).Contents (Elt F) → (⟨S8x2048x2112, .f32⟩ : BufTy).Contents (Elt F)),
    StableHlo.unary main_v33 main_v34 (Host.exp : (⟨S8x2048x2112, .f32⟩ : BufTy).Contents (Elt F) → (⟨S8x2048x2112, .f32⟩ : BufTy).Contents (Elt F)),
    StableHlo.nullary main_cst_5 (constant S_ .f32 0x00000000#32),
    StableHlo.binary main_v34 main_cst_5 main_v35 ((fun x v => Host.reduceAdd x v reducesTo_S8x2048x2112_S8x2048_d2 h_S_) : (⟨S8x2048x2112, .f32⟩ : BufTy).Contents (Elt F) → (⟨S_, .f32⟩ : BufTy).Contents (Elt F) → (⟨S8x2048, .f32⟩ : BufTy).Contents (Elt F)),
    StableHlo.unary main_v35 main_v36 (broadcastInDim S8x2048x1 ![0, 1] bcast_S8x2048_S8x2048x1_0_1 : (⟨S8x2048, .f32⟩ : BufTy).Contents (Elt F) → (⟨S8x2048x1, .f32⟩ : BufTy).Contents (Elt F)),
    StableHlo.unary main_v36 main_v37 (broadcastInDim S8x2048x2112 ![0, 1, 2] bcast_S8x2048x1_S8x2048x2112_0_1_2 : (⟨S8x2048x1, .f32⟩ : BufTy).Contents (Elt F) → (⟨S8x2048x2112, .f32⟩ : BufTy).Contents (Elt F)),
    StableHlo.binary main_v34 main_v37 main_v38 (Host.divf : (⟨S8x2048x2112, .f32⟩ : BufTy).Contents (Elt F) → (⟨S8x2048x2112, .f32⟩ : BufTy).Contents (Elt F) → (⟨S8x2048x2112, .f32⟩ : BufTy).Contents (Elt F)),
    StableHlo.binary main_v38 main_v24 main_v39 ((fun l r => Host.dotGeneral dot_S8x2048x2112_S8x2112x64_S8x2048x64_2_1_1_2_0_0 none l r) : (⟨S8x2048x2112, .f32⟩ : BufTy).Contents (Elt F) → (⟨S8x2112x64, .f32⟩ : BufTy).Contents (Elt F) → (⟨S8x2048x64, .f32⟩ : BufTy).Contents (Elt F)) ]

/-- The whole line. -/
abbrev ops : List (HloOp τ sig (Elt F)) := opsLN ++ opsAttn

-- seventy binds re-associated: the rewrite under the chain recurses once per statement
set_option maxRecDepth 4096 in
/-- The program is that line: the two functions unfolded at their calls, sequencing re-associated. -/
theorem main_eq (c : Dev nD) : main (F := F) c = seq ops := by
  simp only [main, fn_var.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem opsLN_sub : (opsLN : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩

theorem opsAttn_sub : (opsAttn : List (HloOp τ sig (Elt F))).Forall fun op => op.bufs ⊆ tcRefs τ sig :=
  ⟨unary_bufs_sub .., unary_bufs_sub .., binary_bufs_sub .., binary_bufs_sub .., binary_bufs_sub .., binary_bufs_sub ..,
    binary_bufs_sub .., binary_bufs_sub .., nullary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub .., binary_bufs_sub ..⟩

theorem ops_sub : (ops : List (HloOp τ sig (Elt F))).Forall fun op => op.bufs ⊆ tcRefs τ sig :=
  List.forall_iff_forall_mem.mpr fun op h => (List.mem_append.mp h).elim
    (List.forall_iff_forall_mem.mp opsLN_sub op) (List.forall_iff_forall_mem.mp opsAttn_sub op)

/-- Every operation determines its results. -/
theorem ops_fresh : ∀ op ∈ (ops : List (HloOp τ sig (Elt F))), op.fresh = ∅ := by
  intro op h
  rcases List.mem_append.mp h with h | h
  · (repeat (cases h with | head => rfl | tail _ h => ?_)); exact nomatch h
  · (repeat (cases h with | head => rfl | tail _ h => ?_)); exact nomatch h

/-! ## The first stretch: the normalised memory rows -/

theorem ln_arg0 (V : Valuation τ sig (Elt F)) : after opsLN V (Proc.devRef .tc main_arg0) = V (Proc.devRef .tc main_arg0) := by
  after_results_simp
theorem ln_arg1 (V : Valuation τ sig (Elt F)) : after opsLN V (Proc.devRef .tc main_arg1) = V (Proc.devRef .tc main_arg1) := by
  after_results_simp
theorem ln_arg2 (V : Valuation τ sig (Elt F)) : after opsLN V (Proc.devRef .tc main_arg2) = V (Proc.devRef .tc main_arg2) := by
  after_results_simp
theorem ln_arg3 (V : Valuation τ sig (Elt F)) : after opsLN V (Proc.devRef .tc main_arg3) = V (Proc.devRef .tc main_arg3) := by
  after_results_simp
theorem ln_arg4 (V : Valuation τ sig (Elt F)) : after opsLN V (Proc.devRef .tc main_arg4) = V (Proc.devRef .tc main_arg4) := by
  after_results_simp
theorem ln_arg5 (V : Valuation τ sig (Elt F)) : after opsLN V (Proc.devRef .tc main_arg5) = V (Proc.devRef .tc main_arg5) := by
  after_results_simp
theorem ln_arg6 (V : Valuation τ sig (Elt F)) : after opsLN V (Proc.devRef .tc main_arg6) = V (Proc.devRef .tc main_arg6) := by
  after_results_simp

-- the reductions are compared as they stand, never opened
attribute [local irreducible] Host.reduceAdd Host.reduce in
/-- After the first stretch the rows' buffer holds the normalised memory rows of the arguments. -/
theorem ln_mem (V : Valuation τ sig (Elt Ideal)) :
    after opsLN V (Proc.devRef .tc main_v17)
      = Cert.Attn.memTerm (V (Proc.devRef .tc main_arg1)) (V (Proc.devRef .tc main_arg5)) (V (Proc.devRef .tc main_arg6)) := by
  after_results_simp
  rfl

/-! ## The second stretch: the attention, from any contents -/

theorem attn_arg0 (V : Valuation τ sig (Elt F)) : after opsAttn V (Proc.devRef .tc main_arg0) = V (Proc.devRef .tc main_arg0) := by
  after_results_simp
theorem attn_arg1 (V : Valuation τ sig (Elt F)) : after opsAttn V (Proc.devRef .tc main_arg1) = V (Proc.devRef .tc main_arg1) := by
  after_results_simp
theorem attn_arg2 (V : Valuation τ sig (Elt F)) : after opsAttn V (Proc.devRef .tc main_arg2) = V (Proc.devRef .tc main_arg2) := by
  after_results_simp
theorem attn_arg3 (V : Valuation τ sig (Elt F)) : after opsAttn V (Proc.devRef .tc main_arg3) = V (Proc.devRef .tc main_arg3) := by
  after_results_simp
theorem attn_arg4 (V : Valuation τ sig (Elt F)) : after opsAttn V (Proc.devRef .tc main_arg4) = V (Proc.devRef .tc main_arg4) := by
  after_results_simp
theorem attn_arg5 (V : Valuation τ sig (Elt F)) : after opsAttn V (Proc.devRef .tc main_arg5) = V (Proc.devRef .tc main_arg5) := by
  after_results_simp
theorem attn_arg6 (V : Valuation τ sig (Elt F)) : after opsAttn V (Proc.devRef .tc main_arg6) = V (Proc.devRef .tc main_arg6) := by
  after_results_simp

attribute [local irreducible] Host.reduceAdd Host.reduce concatenate in
/-- After the second stretch the result buffer holds the attention term of the tokens, the rows and the three matrices
    as the stretch found them. -/
theorem attn_out (W : Valuation τ sig (Elt Ideal)) :
    after opsAttn W (Proc.devRef .tc main_v39)
      = attnT (W (Proc.devRef .tc main_arg0)) (W (Proc.devRef .tc main_v17)) (W (Proc.devRef .tc main_arg2)) (W (Proc.devRef .tc main_arg3)) (W (Proc.devRef .tc main_arg4)) := by
  after_results_simp
  rfl

/-! ## The whole line -/

theorem arg0_eq (V : Valuation τ sig (Elt F)) : after ops V (Proc.devRef .tc main_arg0) = V (Proc.devRef .tc main_arg0) := by
  rw [show (ops : List (HloOp τ sig (Elt F))) = opsLN ++ opsAttn from rfl, HostFold.after_append, attn_arg0, ln_arg0]
theorem arg1_eq (V : Valuation τ sig (Elt F)) : after ops V (Proc.devRef .tc main_arg1) = V (Proc.devRef .tc main_arg1) := by
  rw [show (ops : List (HloOp τ sig (Elt F))) = opsLN ++ opsAttn from rfl, HostFold.after_append, attn_arg1, ln_arg1]
theorem arg2_eq (V : Valuation τ sig (Elt F)) : after ops V (Proc.devRef .tc main_arg2) = V (Proc.devRef .tc main_arg2) := by
  rw [show (ops : List (HloOp τ sig (Elt F))) = opsLN ++ opsAttn from rfl, HostFold.after_append, attn_arg2, ln_arg2]
theorem arg3_eq (V : Valuation τ sig (Elt F)) : after ops V (Proc.devRef .tc main_arg3) = V (Proc.devRef .tc main_arg3) := by
  rw [show (ops : List (HloOp τ sig (Elt F))) = opsLN ++ opsAttn from rfl, HostFold.after_append, attn_arg3, ln_arg3]
theorem arg4_eq (V : Valuation τ sig (Elt F)) : after ops V (Proc.devRef .tc main_arg4) = V (Proc.devRef .tc main_arg4) := by
  rw [show (ops : List (HloOp τ sig (Elt F))) = opsLN ++ opsAttn from rfl, HostFold.after_append, attn_arg4, ln_arg4]
theorem arg5_eq (V : Valuation τ sig (Elt F)) : after ops V (Proc.devRef .tc main_arg5) = V (Proc.devRef .tc main_arg5) := by
  rw [show (ops : List (HloOp τ sig (Elt F))) = opsLN ++ opsAttn from rfl, HostFold.after_append, attn_arg5, ln_arg5]
theorem arg6_eq (V : Valuation τ sig (Elt F)) : after ops V (Proc.devRef .tc main_arg6) = V (Proc.devRef .tc main_arg6) := by
  rw [show (ops : List (HloOp τ sig (Elt F))) = opsLN ++ opsAttn from rfl, HostFold.after_append, attn_arg6, ln_arg6]

/-- After the whole line the result buffer holds 'refTerm' of the arguments. -/
theorem out_eq (V : Valuation τ sig (Elt Ideal)) :
    after ops V (Proc.devRef .tc main_v39)
      = refTerm (V (Proc.devRef .tc main_arg0)) (V (Proc.devRef .tc main_arg1)) (V (Proc.devRef .tc main_arg2)) (V (Proc.devRef .tc main_arg3)) (V (Proc.devRef .tc main_arg4))
          (V (Proc.devRef .tc main_arg5)) (V (Proc.devRef .tc main_arg6)) := by
  rw [show (ops : List (HloOp τ sig (Elt Ideal))) = opsLN ++ opsAttn from rfl, HostFold.after_append, attn_out, ln_mem,
    ln_arg0, ln_arg2, ln_arg3, ln_arg4]
  rfl

/-- From any memory with zero counters, every weakly fair execution of the reference terminates with the result at
    'refTerm' of the arguments and the seven arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v39) = refTerm (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v39).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_seq scopedRefs_eq scopedSems_eq defs main (fun _ => ops) main_eq (fun _ => ops_sub) m ρ (fun _ => ops_fresh))

end Cert.Attn.Ref

end
-- ==== Proof.RefRead.lean ====
/-
  The reference's result read at an index.

  Each stage of the reference's term is read at explicit coordinates: a projection is a sum over the 1024 input features;
  the copied memory rows do not depend on the batch; the extended rows are the projected token below row 2048 and the
  memory row 2048 below from there on; a score is an inner product over the 64 features times 1/8; a row's maximum is
  the fold of max from minus infinity over the row's 2112 scores (a second comparison with minus infinity changes
  nothing); an exponential is of the score minus that maximum; a row's sum is over its 2112 exponentials; a weight is an
  exponential over its row's sum; the result is the weighted sum of the extended values. Put together, the result at
  (b, t, j) is the specification's attention with each weight divided first. None of this needs the inputs finite.
-/
import proofs.«158825_j27247272526054_2_alg».proof.Proof.RefTerm
import proofs.«158825_j27247272526054_2_alg».proof.Proof.LibContract
import Idealize.ShloMosaic.Lib.IdealHost
import Idealize.ShloMosaic.Lib.Pipeline.Value

noncomputable section

namespace Cert.Attn.Ref

open Idealize.ShloMosaic Idealize.ShloMosaic.ValueIdx Cert.ReferenceIdeal Cert.ReferenceIdeal.Facts₀

/-! ## The stages at an index -/

/-- A projection at (b, t, j): the sum over the 1024 input features. -/
theorem projT_apply (x : FVec Ideal Cert.ReferenceIdeal.S8x2048x1024 .f32) (w : FVec Ideal Cert.ReferenceIdeal.S1024x64 .f32)
    (b : Fin 8) (t : Fin 2048) (j : Fin 64) :
    projT x w (ix3 b t j) = Cert.Attn.proj x w b t j := by
  unfold projT Cert.Attn.proj
  refine ContractSingle.dotGeneral_single dot_S8x2048x1024_S1024x64_S8x2048x64_2_0_01_1_n_n none .single 1024 rfl rfl x w (ix3 b t j)
    (fun d => x (ix3 b t d)) (fun d => w (ix2 d j)) ?_ ?_
  · intro i
    refine congrArg x (funext fun a => Fin.ext ?_)
    match a with
    | ⟨0, _⟩ => rfl
    | ⟨1, _⟩ => rfl
    | ⟨2, _⟩ => exact contrEquiv1_symm_val dot_S8x2048x1024_S1024x64_S8x2048x64_2_0_01_1_n_n 1024 rfl rfl i
  · intro i
    refine congrArg w (funext fun a => Fin.ext ?_)
    match a with
    | ⟨0, _⟩ => exact contrEquiv1_symm_val dot_S8x2048x1024_S1024x64_S8x2048x64_2_0_01_1_n_n 1024 rfl rfl i
    | ⟨1, _⟩ => rfl

/-- The per-batch copy of the memory rows at (b, r, c) is the memory row r at c. -/
theorem memB_apply (mem : FVec Ideal Cert.ReferenceIdeal.S64x64 .f32) (b : Fin 8) (r c : Fin 64) :
    memB mem (ix3 b r c) = mem (ix2 r c) := by
  unfold memB
  refine (broadcastInDim_apply _ _ _ (ix3 b r c) (ix3 (0 : Fin 1) r c) ?_).trans ?_
  · intro a
    match a with
    | ⟨0, _⟩ => rfl
    | ⟨1, _⟩ => rfl
    | ⟨2, _⟩ => rfl
  · refine broadcastInDim_apply _ _ _ (ix3 (0 : Fin 1) r c) (ix2 r c) ?_
    intro a
    match a with
    | ⟨0, _⟩ => rfl
    | ⟨1, _⟩ => rfl

/-- The extended rows at a row below 2048: the projected token. -/
theorem extT_apply_lt (p : FVec Ideal Cert.ReferenceIdeal.S8x2048x64 .f32) (mb : FVec Ideal S8x64x64 .f32)
    (b : Fin 8) (s : Fin 2112) (j : Fin 64) (h : s.val < 2048) :
    extT p mb (ix3 b s j) = p (ix3 b (⟨s.val, h⟩ : Fin 2048) j) := by
  unfold extT
  refine concatenate_pair_apply_left _ p mb _ (ix3 b s j) rfl (ix3 b (⟨s.val, h⟩ : Fin 2048) j) ?_
  intro a
  match a with
  | ⟨0, _⟩ => rfl
  | ⟨1, _⟩ => rfl
  | ⟨2, _⟩ => rfl

/-- The extended rows at a row from 2048 on: the memory row 2048 below. -/
theorem extT_apply_ge (p : FVec Ideal Cert.ReferenceIdeal.S8x2048x64 .f32) (mb : FVec Ideal S8x64x64 .f32)
    (b : Fin 8) (s : Fin 2112) (j : Fin 64) (h : ¬ s.val < 2048) :
    extT p mb (ix3 b s j) = mb (ix3 b (⟨s.val - 2048, by omega⟩ : Fin 64) j) := by
  unfold extT
  refine concatenate_pair_apply_right _ p mb _ (ix3 b s j) rfl rfl (ix3 b (⟨s.val - 2048, by omega⟩ : Fin 64) j) ?_ ?_
  · intro a ha
    match a with
    | ⟨0, _⟩ => rfl
    | ⟨1, _⟩ => exact absurd rfl ha
    | ⟨2, _⟩ => rfl
  · show s.val - 2048 + 2048 = s.val
    omega

/-- A score at (b, t, s): the inner product over the 64 features, times 1/8. -/
theorem scoreT_apply (q : FVec Ideal Cert.ReferenceIdeal.S8x2048x64 .f32) (k : FVec Ideal S8x2112x64 .f32)
    (b : Fin 8) (t : Fin 2048) (s : Fin 2112) :
    scoreT q k (ix3 b t s) = (∑ j : Fin 64, q (ix3 b t j) * k (ix3 b s j)) * Cert.Attn.eighth := by
  unfold scoreT Cert.Attn.eighth
  have h1 : broadcastInDim S8x2048x2112 ![] bcast_S_S8x2048x2112 (constant (F := Ideal) Cert.ReferenceIdeal.S_ .f32 0x3E000000#32) (ix3 b t s)
      = Ideal.ofBits .f32 0x3E000000#32 := broadcastInDim_scalar_apply _ _ _
  rw [mulf_apply, h1]
  refine congrArg (· * Ideal.ofBits .f32 0x3E000000#32) ?_
  refine ContractSingle.dotGeneral_single dot_S8x2048x64_S8x2112x64_S8x2048x2112_2_2_1_1_0_0 none .single 64 rfl rfl q k (ix3 b t s)
    (fun j => q (ix3 b t j)) (fun j => k (ix3 b s j)) ?_ ?_
  · intro i
    refine congrArg q (funext fun a => Fin.ext ?_)
    match a with
    | ⟨0, _⟩ => rfl
    | ⟨1, _⟩ => rfl
    | ⟨2, _⟩ => exact contrEquiv1_symm_val dot_S8x2048x64_S8x2112x64_S8x2048x2112_2_2_1_1_0_0 64 rfl rfl i
  · intro i
    refine congrArg k (funext fun a => Fin.ext ?_)
    match a with
    | ⟨0, _⟩ => rfl
    | ⟨1, _⟩ => rfl
    | ⟨2, _⟩ => exact contrEquiv1_symm_val dot_S8x2048x64_S8x2112x64_S8x2048x2112_2_2_1_1_0_0 64 rfl rfl i

/-- The last axis of the scores is the one the row reductions drop. -/
theorem red_last : Shape.Reduces S8x2048x2112 [2] S8x2048 := by decide

/-- The index a row reduction reads at (b, t) and position s is (b, t, s). -/
theorem lift_last (b : Fin 8) (t : Fin 2048) (s : Fin 2112) : red_last.lift (ix2 b t) s = ix3 b t s := by
  funext a
  apply Fin.ext
  match a with
  | ⟨0, _⟩ => rfl
  | ⟨1, _⟩ => rfl
  | ⟨2, _⟩ => rfl

/-- A column over (b, t), spread along the score axis, reads the column at (b, t). -/
theorem spread_apply (v : FVec Ideal S8x2048 .f32) (b : Fin 8) (t : Fin 2048) (s : Fin 2112) :
    broadcastInDim S8x2048x2112 ![0, 1, 2] bcast_S8x2048x1_S8x2048x2112_0_1_2
      (broadcastInDim S8x2048x1 ![0, 1] bcast_S8x2048_S8x2048x1_0_1 v) (ix3 b t s) = v (ix2 b t) := by
  refine (broadcastInDim_apply _ _ _ (ix3 b t s) (ix3 b t (0 : Fin 1)) ?_).trans ?_
  · intro a
    match a with
    | ⟨0, _⟩ => rfl
    | ⟨1, _⟩ => rfl
    | ⟨2, _⟩ => rfl
  · refine broadcastInDim_apply _ _ _ (ix3 b t (0 : Fin 1)) (ix2 b t) ?_
    intro a
    match a with
    | ⟨0, _⟩ => rfl
    | ⟨1, _⟩ => rfl

/-- A row's maximum at (b, t): the fold of max from minus infinity over the 2112 scores; the second comparison with
    minus infinity changes nothing, the fold being at least its starting value. -/
theorem rowMaxT_apply (sc : FVec Ideal S8x2048x2112 .f32) (b : Fin 8) (t : Fin 2048) :
    rowMaxT sc (ix2 b t) = (Finset.univ : Finset (Fin 2112)).fold max Cert.Attn.negInf (fun s => sc (ix3 b t s)) := by
  unfold rowMaxT Cert.Attn.negInf
  have h1 : broadcastInDim S8x2048 ![] bcast_S_S8x2048 (constant (F := Ideal) Cert.ReferenceIdeal.S_ .f32 0xFF800000#32) (ix2 b t)
      = Ideal.ofBits .f32 0xFF800000#32 := broadcastInDim_scalar_apply _ _ _
  have h2 : Host.reduce FloatOps.maximumf sc (constant (F := Ideal) Cert.ReferenceIdeal.S_ .f32 0xFF800000#32)
        reducesTo_S8x2048x2112_S8x2048_d2 h_S_ (ix2 b t)
      = (Finset.univ : Finset (Fin 2112)).fold max (Ideal.ofBits .f32 0xFF800000#32) (fun s => sc (ix3 b t s)) := by
    refine (Host.reduce_eq_fold_single FloatOps.maximumf sc _ reducesTo_S8x2048x2112_S8x2048_d2 red_last h_S_ (ix2 b t)).trans ?_
    exact Finset.fold_congr fun s _ => congrArg sc (lift_last b t s)
  rw [maximumf_apply, h1, h2]
  exact max_eq_right ((Finset.le_fold_max _).mpr (Or.inl le_rfl))

/-- An exponential at (b, t, s): of the score minus its row's maximum. -/
theorem pexpT_apply (sc : FVec Ideal S8x2048x2112 .f32) (b : Fin 8) (t : Fin 2048) (s : Fin 2112) :
    pexpT sc (ix3 b t s) = Ideal.exp (sc (ix3 b t s) - rowMaxT sc (ix2 b t)) := by
  unfold pexpT
  show Ideal.exp (sc (ix3 b t s) - _) = _
  rw [spread_apply]

/-- A row's sum at (b, t): the sum over the 2112 positions (from zero). -/
theorem denomT_apply (p : FVec Ideal S8x2048x2112 .f32) (b : Fin 8) (t : Fin 2048) :
    denomT p (ix2 b t) = ∑ s : Fin 2112, p (ix3 b t s) := by
  unfold denomT
  rw [hostReduceAdd_apply, Ideal.hostReduceAdd_single _ red_last, constant_apply, Ideal.ofBits_zero_f32, zero_add]
  exact Finset.sum_congr rfl fun s _ => congrArg p (lift_last b t s)

/-- A weight at (b, t, s): the exponential over its row's sum. -/
theorem weightT_apply (p : FVec Ideal S8x2048x2112 .f32) (b : Fin 8) (t : Fin 2048) (s : Fin 2112) :
    weightT p (ix3 b t s) = Ideal.div (p (ix3 b t s)) (denomT p (ix2 b t)) := by
  unfold weightT
  show Ideal.div (p (ix3 b t s)) _ = _
  rw [spread_apply]

/-- The weighted sum at (b, t, j): over the 2112 positions, weight times extended value. -/
theorem outT_apply (wgt : FVec Ideal S8x2048x2112 .f32) (v : FVec Ideal S8x2112x64 .f32)
    (b : Fin 8) (t : Fin 2048) (j : Fin 64) :
    Host.dotGeneral (F := Ideal) dot_S8x2048x2112_S8x2112x64_S8x2048x64_2_1_1_2_0_0 none wgt v (ix3 b t j) = ∑ s : Fin 2112, wgt (ix3 b t s) * v (ix3 b s j) := by
  refine ContractSingle.dotGeneral_single dot_S8x2048x2112_S8x2112x64_S8x2048x64_2_1_1_2_0_0 none .single 2112 rfl rfl wgt v (ix3 b t j)
    (fun s => wgt (ix3 b t s)) (fun s => v (ix3 b s j)) ?_ ?_
  · intro i
    refine congrArg wgt (funext fun a => Fin.ext ?_)
    match a with
    | ⟨0, _⟩ => rfl
    | ⟨1, _⟩ => rfl
    | ⟨2, _⟩ => exact contrEquiv1_symm_val dot_S8x2048x2112_S8x2112x64_S8x2048x64_2_1_1_2_0_0 2112 rfl rfl i
  · intro i
    refine congrArg v (funext fun a => Fin.ext ?_)
    match a with
    | ⟨0, _⟩ => rfl
    | ⟨1, _⟩ => exact contrEquiv1_symm_val dot_S8x2048x2112_S8x2112x64_S8x2048x64_2_1_1_2_0_0 2112 rfl rfl i
    | ⟨2, _⟩ => rfl

/-! ## The reference is the specification's attention, dividing each weight first -/

section Assemble

variable (x : FVec Ideal Cert.ReferenceIdeal.S8x2048x1024 .f32) (mem : FVec Ideal Cert.ReferenceIdeal.S64x64 .f32)
  (wq wk wv : FVec Ideal Cert.ReferenceIdeal.S1024x64 .f32)

/-- The extended rows built from a projection and the copied memory rows are the specification's. -/
theorem ext_eq (w : FVec Ideal Cert.ReferenceIdeal.S1024x64 .f32) (b : Fin 8) (s : Fin 2112) (j : Fin 64) :
    extT (projT x w) (memB mem) (ix3 b s j) = Cert.Attn.ext x mem w b s j := by
  unfold Cert.Attn.ext
  split
  · next h => rw [extT_apply_lt _ _ b s j h, projT_apply]
  · next h => rw [extT_apply_ge _ _ b s j h, memB_apply]

theorem score_eq (b : Fin 8) (t : Fin 2048) (s : Fin 2112) :
    (scoreT (projT x wq) (extT (projT x wk) (memB mem))) (ix3 b t s) = Cert.Attn.score x wq wk mem b t s := by
  rw [scoreT_apply]
  unfold Cert.Attn.score
  refine congrArg (· * Cert.Attn.eighth) (Finset.sum_congr rfl fun j _ => ?_)
  rw [projT_apply, ext_eq]

theorem rowMax_eq (b : Fin 8) (t : Fin 2048) :
    rowMaxT (scoreT (projT x wq) (extT (projT x wk) (memB mem))) (ix2 b t) = Cert.Attn.rowMax x wq wk mem b t := by
  rw [rowMaxT_apply]
  unfold Cert.Attn.rowMax
  exact Finset.fold_congr fun s _ => score_eq x mem wq wk b t s

theorem pexp_eq (b : Fin 8) (t : Fin 2048) (s : Fin 2112) :
    pexpT (scoreT (projT x wq) (extT (projT x wk) (memB mem))) (ix3 b t s) = Cert.Attn.pexp x wq wk mem b t s := by
  rw [pexpT_apply, score_eq, rowMax_eq]
  rfl

theorem denom_eq (b : Fin 8) (t : Fin 2048) :
    denomT (pexpT (scoreT (projT x wq) (extT (projT x wk) (memB mem)))) (ix2 b t) = Cert.Attn.denom x wq wk mem b t := by
  rw [denomT_apply]
  unfold Cert.Attn.denom
  exact Finset.sum_congr rfl fun s _ => pexp_eq x mem wq wk b t s

/-- Everything after the memory rows, at (b, t, j): each weight divided by its row's sum, then the weighted sum. -/
theorem attnT_apply (b : Fin 8) (t : Fin 2048) (j : Fin 64) :
    attnT x mem wq wk wv (ix3 b t j) = Cert.Attn.outDivThenSum x wq wk wv mem b t j := by
  unfold attnT Cert.Attn.outDivThenSum
  rw [outT_apply]
  refine Finset.sum_congr rfl fun s _ => ?_
  rw [weightT_apply, pexp_eq, denom_eq, ext_eq]

end Assemble

/-- The reference's result at (b, t, j) is the specification's attention over the tokens and the normalised memory rows,
    each weight divided by its row's sum before the weighted sum. No finiteness is needed: this is index bookkeeping. -/
theorem refTerm_apply (x : FVec Ideal Cert.ReferenceIdeal.S8x2048x1024 .f32) (c : FVec Ideal Cert.ReferenceIdeal.S64x64 .f32)
    (wq wk wv : FVec Ideal Cert.ReferenceIdeal.S1024x64 .f32) (gam bet : FVec Ideal Cert.ReferenceIdeal.S64 .f32)
    (b : Fin 8) (t : Fin 2048) (j : Fin 64) :
    refTerm x c wq wk wv gam bet (ix3 b t j)
      = Cert.Attn.outDivThenSum x wq wk wv (Cert.Attn.memTerm c gam bet) b t j :=
  attnT_apply x (Cert.Attn.memTerm c gam bet) wq wk wv b t j

end Cert.Attn.Ref

end
-- ==== Proof.LibIsReal.lean ====
/-
  Extended reals that are real numbers, and a real weight moved across absolute differences.

  `IsReal x` says the extended real `x` is (the image of) a real number. Real numbers are closed under sums,
  differences, the absolute value taken as the larger of `x` and `-x` (`absE`), and finite sums (`isReal_sum`), so a
  quantity built from real pieces by these operations stays away from both infinities, where the extended reals do
  not distribute. For real `A B C D w` (`weighted_abs`):
    |A w - B w| + |C w - D w| = |w| (|A - B| + |C - D|).
  Nothing here mentions a program: the file depends on Mathlib's extended reals only.
-/
import Mathlib.Data.EReal.Basic
import Mathlib.Data.EReal.Operations
import Mathlib.Algebra.BigOperators.Group.Finset.Basic
import Mathlib.Algebra.Order.AbsoluteValue.Basic
import Mathlib.Tactic.Ring

noncomputable section

namespace Cert.EdgeLoss

/-- The absolute value as both programs take it: the larger of `x` and `-x`. -/
def absE (x : EReal) : EReal := max x (-x)

/-- An extended real that is a real number. -/
def IsReal (x : EReal) : Prop := ∃ r : ℝ, x = (r : EReal)

theorem isReal_zero : IsReal 0 := ⟨0, EReal.coe_zero.symm⟩

/-- The inclusion of the reals is monotone, so it commutes with the larger of two numbers. -/
theorem coe_max (a b : ℝ) : ((max a b : ℝ) : EReal) = max (a : EReal) (b : EReal) :=
  EReal.coe_strictMono.monotone.map_max

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.absE {x : EReal} (hx : IsReal x) : IsReal (absE x) := by
  obtain ⟨a, rfl⟩ := hx
  exact ⟨max a (-a), by rw [Cert.EdgeLoss.absE, coe_max, EReal.coe_neg]⟩

theorem isReal_sum {ι : Type} (s : Finset ι) (f : ι → EReal) (hf : ∀ i ∈ s, IsReal (f i)) : IsReal (∑ i ∈ s, f i) := by
  classical
  induction s using Finset.induction_on with
  | empty => rw [Finset.sum_empty]; exact isReal_zero
  | insert a s ha ih =>
    rw [Finset.sum_insert ha]
    exact (hf a (Finset.mem_insert_self a s)).add (ih fun i hi => hf i (Finset.mem_insert_of_mem hi))

/-! ## A finite weight moves across the differences -/

/-- For real numbers, |A w - B w| + |C w - D w| = |w| (|A - B| + |C - D|): the reference weights each structure
    before it subtracts, the kernel weights the sum of the two absolute differences. -/
theorem weighted_abs {A B C D w : EReal} (hA : IsReal A) (hB : IsReal B) (hC : IsReal C) (hD : IsReal D) (hw : IsReal w) :
    absE (A * w - B * w) + absE (C * w - D * w) = absE w * (absE (A - B) + absE (C - D)) := by
  obtain ⟨a, rfl⟩ := hA; obtain ⟨b, rfl⟩ := hB; obtain ⟨c, rfl⟩ := hC; obtain ⟨d, rfl⟩ := hD; obtain ⟨v, rfl⟩ := hw
  simp only [absE, ← EReal.coe_mul, ← EReal.coe_sub, ← EReal.coe_neg, ← coe_max, ← EReal.coe_add]
  refine congrArg _ ?_
  simp only [← abs_eq_max_neg]
  rw [← sub_mul, ← sub_mul, abs_mul, abs_mul]
  ring

end Cert.EdgeLoss

end
-- ==== Proof.Consts.lean ====
/-
  The float constants of the two programs, as the extended reals their patterns denote.

  A 32-bit pattern is a sign, eight exponent bits and twenty-three fraction bits. An all-ones exponent with a zero
  fraction is an infinity of the pattern's sign; otherwise a nonzero exponent E and a fraction T denote
  (2^23 + T) 2^(E - 150), and the all-zero pattern denotes 0. So 0x7F800000 is +infinity, 0xFF800000 is -infinity,
  0x42800000 is 64, 0x3E000000 is 1/8, and 0x3727C5AC is 10995116 / 2^40 (about 0.00001), a positive real number.
  Every pattern is read here and nowhere else.
-/
import Idealize.ShloMosaic.PureOps.Ideal
import Idealize.ShloMosaic.PureOps.Ideal.Laws

noncomputable section

namespace Cert.Attn.Consts

open Idealize.ShloMosaic

/-- The pattern 0x7F800000 is +infinity. -/
theorem ofBits_posInf : Ideal.ofBits .f32 0x7F800000#32 = (⊤ : EReal) := by
  simp [Ideal.ofBits, Ideal.ieee]

/-- The pattern 0xFF800000 is -infinity. -/
theorem ofBits_negInf : Ideal.ofBits .f32 0xFF800000#32 = (⊥ : EReal) := by
  simp [Ideal.ofBits, Ideal.ieee]

/-- The all-zero pattern is 0. -/
theorem ofBits_zero : Ideal.ofBits .f32 0x00000000#32 = 0 := by
  simp [Ideal.ofBits, Ideal.ieee]

/-- The pattern 0x42800000 is the real number 64. -/
theorem ofBits_64 : Ideal.ofBits .f32 0x42800000#32 = ((64 : ℝ) : EReal) := by
  simp [Ideal.ofBits, Ideal.ieee, -EReal.coe_mul]; norm_num

/-- The pattern 0x3E000000 is the real number 1/8. -/
theorem ofBits_eighth : Ideal.ofBits .f32 0x3E000000#32 = (((1 : ℝ) / 8 : ℝ) : EReal) := by
  simp [Ideal.ofBits, Ideal.ieee, -EReal.coe_mul]; norm_num

/-- The pattern 0x3727C5AC is the real number 10995116 / 2^40. -/
theorem ofBits_eps : Ideal.ofBits .f32 0x3727C5AC#32 = (((10995116 : ℝ) / 2 ^ 40 : ℝ) : EReal) := by
  simp [Ideal.ofBits, Ideal.ieee, -EReal.coe_mul]; norm_num

/-- That number is positive. -/
theorem eps_pos : (0 : ℝ) < (10995116 : ℝ) / 2 ^ 40 := by positivity

end Cert.Attn.Consts

end
-- ==== Proof.Finite.lean ====
/-
  Finite inputs are real numbers.

  The precondition says, of each of the seven input arrays, that every entry x has |x| < +infinity, where |x| is the
  larger of x and -x and +infinity is the pattern 0x7F800000; all these comparisons are folded by 'and' into one bit,
  and the bit is 1. An 'and' that is 1 met only 1s, so every single comparison holds. On the extended reals
  max x (-x) < +infinity fails at both infinities (the larger of an infinity and its negative is +infinity) and says
  nothing else: x is a real number.
-/
import proofs.«158825_j27247272526054_2_alg».proof.Defs
import proofs.«158825_j27247272526054_2_alg».proof.Proof.Gen.Pre_finite_inputs
import proofs.«158825_j27247272526054_2_alg».proof.Proof.LibIsReal
import proofs.«158825_j27247272526054_2_alg».proof.Proof.Consts
import Idealize.ShloMosaic.Lib.ReduceAll
import Idealize.ShloMosaic.Lib.IdealHost

noncomputable section

namespace Cert.Attn.Fin

open Idealize.ShloMosaic Idealize.ShloMosaic.ValueIdx Cert.EdgeLoss

/-- The shape of a scalar has one index. -/
instance subsingleton_scalarIdx : Subsingleton Cert.Pre_finite_inputs.S_.Idx := ⟨fun a b => funext fun d => d.elim0⟩

/-- An extended real whose absolute value (the larger of x and -x) is below +infinity is a real number. -/
theorem isReal_of_abs_lt_inf (x : EReal)
    (h : Ideal.cmp .olt (max x (-x)) (Ideal.ofBits .f32 0x7F800000#32) = 1#1) : IsReal x := by
  rw [Cert.Attn.Consts.ofBits_posInf] at h
  induction x using EReal.rec with
  | bot => exact absurd h (by simp [Ideal.cmp])
  | coe r => exact ⟨r, rfl⟩
  | top => exact absurd h (by simp [Ideal.cmp])

/-- One array's conjunct of the precondition: if the 'and' over all entries of "|a| < +infinity" is 1, every entry of
    'a' is a real number. -/
theorem real_of_all {S : Shape} {axes : List (Fin S.rank)} (a : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (init : IVec Cert.Pre_finite_inputs.S_ 1)
    (e : Host.reduce IntOp.andi
          (cmpf .olt (Host.absf a)
            (broadcastInDim S ![] hb (constant (F := Ideal) Cert.Pre_finite_inputs.S_ .f32 0x7F800000#32)))
          init hr hu ix0 = 1#1) :
    ∀ i, IsReal (a i) := fun i => by
  have h1 := Host.reduce_andi_all _ init hr hu ix0 e i
  rw [cmpf_apply, broadcastInDim_scalar_apply, constant_apply] at h1
  exact isReal_of_abs_lt_inf (a i) h1

/-- The precondition, all ones, makes every entry of every input array a real number. -/
theorem real_of_fn (a0 : FVec Ideal Cert.Pre_finite_inputs.S8x2048x1024 .f32)
    (a1 : FVec Ideal Cert.Pre_finite_inputs.S64x64 .f32)
    (a2 a3 a4 : FVec Ideal Cert.Pre_finite_inputs.S1024x64 .f32)
    (a5 a6 : FVec Ideal Cert.Pre_finite_inputs.S64 .f32)
    (h : Cert.Pre_finite_inputs.fn (F := Ideal) a0 a1 a2 a3 a4 a5 a6 = (fun _ => 1#1)) :
    (∀ i, IsReal (a0 i)) ∧ (∀ i, IsReal (a1 i)) ∧ (∀ i, IsReal (a2 i)) ∧ (∀ i, IsReal (a3 i)) ∧
      (∀ i, IsReal (a4 i)) ∧ (∀ i, IsReal (a5 i)) ∧ (∀ i, IsReal (a6 i)) := by
  have h0 := congrFun h ix0
  dsimp only [Cert.Pre_finite_inputs.fn, Cert.Pre_finite_inputs.fn_part1, andi] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all a0 _ _ _ _ e0, real_of_all a1 _ _ _ _ e1, real_of_all a2 _ _ _ _ e2,
    real_of_all a3 _ _ _ _ e3, real_of_all a4 _ _ _ _ e4, real_of_all a5 _ _ _ _ e5, real_of_all a6 _ _ _ _ e6⟩

end Cert.Attn.Fin

end
-- ==== Proof.LibRealScale.lean ====
/-
  A real factor moved across a finite sum of products, on the extended reals.

  The extended reals are not a ring: a product does not distribute over a sum at an infinity (the sum may be
  `⊤ + ⊥`). For extended reals that are real numbers (`IsReal`) every ring identity of the reals holds, because
  the inclusion of the reals commutes with products and with finite sums (`coe_finset_sum`). This file proves that
  real numbers are closed under products (`IsReal.mul`), that the image of a real number is real (`isReal_coe`),
  and the identity used for a scaled inner product (`scale_sum`):
    ∑ i, (a i * c) * b i = (∑ i, a i * b i) * c    for real a i, b i, c.
  Nothing here mentions a program: the file depends on Mathlib's extended reals only.
-/
import Mathlib
import proofs.«158825_j27247272526054_2_alg».proof.Proof.LibIsReal

noncomputable section

open scoped BigOperators

namespace Cert.EdgeLoss

/-- The product of two real numbers is a real number. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

end Cert.EdgeLoss

namespace Cert.RealScale

open Cert.EdgeLoss

/-- The image of a real number is real. -/
theorem isReal_coe (r : ℝ) : IsReal (r : EReal) := ⟨r, rfl⟩

/-- The inclusion of the reals commutes with finite sums. -/
theorem coe_finset_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A real factor moves across a finite sum of products of real numbers. On the extended reals this needs the
    terms real: at an infinity the product does not distribute. -/
theorem scale_sum {ι : Type} [Fintype ι] (a b : ι → EReal) (c : EReal)
    (ha : ∀ i, IsReal (a i)) (hb : ∀ i, IsReal (b i)) (hc : IsReal c) :
    ∑ i, (a i * c) * b i = (∑ i, a i * b i) * c := by
  choose a' ha' using ha
  choose b' hb' using hb
  obtain ⟨c', rfl⟩ := hc
  have h1 : ∀ i, (a i * (c' : EReal)) * b i = ((a' i * c' * b' i : ℝ) : EReal) := fun i => by
    rw [ha' i, hb' i, EReal.coe_mul, EReal.coe_mul]
  have h2 : ∀ i, a i * b i = ((a' i * b' i : ℝ) : EReal) := fun i => by
    rw [ha' i, hb' i, EReal.coe_mul]
  rw [Finset.sum_congr rfl fun i _ => h1 i, Finset.sum_congr rfl fun i _ => h2 i,
    ← coe_finset_sum, ← coe_finset_sum, ← EReal.coe_mul, Finset.sum_mul]
  refine congrArg _ (Finset.sum_congr rfl fun i _ => ?_)
  ring

end Cert.RealScale

end
-- ==== Proof.MemReal.lean ====
/-
  The normalised memory rows are real numbers when the table, the scale and the shift are.

  Row by row: the mean is (0 + the row's sum) / 64, a real number. The count is 64 - 0 = 64, which is positive, so
  the variance is the branch (0 + the sum of the squared deviations) / 64: a real number that is not negative, since
  each term is the square of a real number. Adding the positive real constant 10995116 / 2^40 gives a positive real
  number r, and the reciprocal square root of a positive real r is the real number 1 / sqrt r (the two corner cases,
  r negative and r zero, do not arise). What remains, (c - mean) * rsqrt * gamma + beta, is built from real numbers
  by differences, products and a sum. A broadcast only copies entries, so it keeps every property of the entries.
-/
import proofs.«158825_j27247272526054_2_alg».proof.Proof.AttnSpec
import proofs.«158825_j27247272526054_2_alg».proof.Proof.LibIsReal
import proofs.«158825_j27247272526054_2_alg».proof.Proof.LibRealScale
import proofs.«158825_j27247272526054_2_alg».proof.Proof.Consts
import Idealize.ShloMosaic.PureOps.Ideal
import Idealize.ShloMosaic.PureOps.Ideal.Laws
import Idealize.ShloMosaic.Lib.IdealHost

noncomputable section

namespace Cert.Attn.Fin

open Idealize.ShloMosaic Idealize.ShloMosaic.ValueIdx Cert.EdgeLoss

/-! ## Real numbers that are not negative -/

/-- An extended real that is a real number and not negative. -/
def IsNN (x : EReal) : Prop := ∃ r : ℝ, 0 ≤ r ∧ x = (r : EReal)

theorem IsNN.isReal {x : EReal} (h : IsNN x) : IsReal x := by
  obtain ⟨r, _, e⟩ := h; exact ⟨r, e⟩

theorem isNN_zero : IsNN 0 := ⟨0, le_refl 0, EReal.coe_zero.symm⟩

theorem IsNN.add {x y : EReal} (hx : IsNN x) (hy : IsNN y) : IsNN (x + y) := by
  obtain ⟨a, ha, rfl⟩ := hx; obtain ⟨b, hb, rfl⟩ := hy
  exact ⟨a + b, add_nonneg ha hb, (EReal.coe_add a b).symm⟩

/-- The square of a real number is a real number that is not negative. -/
theorem isNN_mul_self {x : EReal} (hx : IsReal x) : IsNN (x * x) := by
  obtain ⟨a, rfl⟩ := hx; exact ⟨a * a, mul_self_nonneg a, (EReal.coe_mul a a).symm⟩

theorem isNN_sum {ι : Type} (s : Finset ι) (f : ι → EReal) (hf : ∀ i ∈ s, IsNN (f i)) : IsNN (∑ i ∈ s, f i) := by
  classical
  induction s using Finset.induction_on with
  | empty => rw [Finset.sum_empty]; exact isNN_zero
  | insert a s ha ih =>
    rw [Finset.sum_insert ha]
    exact (hf a (Finset.mem_insert_self a s)).add (ih fun i hi => hf i (Finset.mem_insert_of_mem hi))

/-- A real number over a nonzero real number is a real number. -/
theorem IsReal.div_coe {x : EReal} (hx : IsReal x) {y : ℝ} (hy : y ≠ 0) : IsReal (Ideal.div x (y : EReal)) := by
  rw [Ideal.div_coe hy]; exact hx.mul ⟨_, rfl⟩

/-- A real number that is not negative, over a positive real number, is a real number that is not negative. -/
theorem IsNN.div_coe {x : EReal} (hx : IsNN x) {y : ℝ} (hy : 0 < y) : IsNN (Ideal.div x (y : EReal)) := by
  obtain ⟨a, ha, rfl⟩ := hx
  rw [Ideal.div_coe hy.ne']
  exact ⟨a * (1 / y), mul_nonneg ha (by positivity), (EReal.coe_mul _ _).symm⟩

/-- The reciprocal square root of a positive real number is a real number. -/
theorem isReal_rsqrt_pos {r : ℝ} (hr : 0 < r) : IsReal (Ideal.rsqrt (r : EReal)) := by
  rw [Ideal.rsqrt_coe, if_neg (not_lt.2 hr.le), if_neg hr.ne']; exact ⟨_, rfl⟩

/-! ## The array operations keep these properties -/

/-- A broadcast reads an entry of its operand, so it has every property all the operand's entries have. -/
theorem broadcastInDim_of_forall {s t : Shape} (P : EReal → Prop) (dims : Fin s.rank → Fin t.rank)
    (h : s.BroadcastsInDim t dims) (x : s.Idx → EReal) (hx : ∀ k, P (x k)) (j : t.Idx) :
    P (broadcastInDim t dims h x j) := by
  unfold broadcastInDim; exact hx _

/-- A sum of real entries from a real initial value is a real number. -/
theorem isReal_hostReduceAdd {s t u : Shape} {axes : List (Fin s.rank)} (x : FVec Ideal s .f32)
    (init : u.Idx → Ideal .f32) (h : s.ReducesTo axes t) (hu : 0 < u.numel)
    (hx : ∀ i, IsReal (x i)) (hi : ∀ k, IsReal (init k)) (j : t.Idx) :
    IsReal (Host.reduceAdd x init h hu j) := by
  rw [hostReduceAdd_apply]; unfold Ideal.hostReduceAdd
  exact (hi _).add (isReal_sum _ _ fun i _ => hx i)

/-- A sum of entries that are not negative, from such an initial value, is not negative. -/
theorem isNN_hostReduceAdd {s t u : Shape} {axes : List (Fin s.rank)} (x : FVec Ideal s .f32)
    (init : u.Idx → Ideal .f32) (h : s.ReducesTo axes t) (hu : 0 < u.numel)
    (hx : ∀ i, IsNN (x i)) (hi : ∀ k, IsNN (init k)) (j : t.Idx) :
    IsNN (Host.reduceAdd x init h hu j) := by
  rw [hostReduceAdd_apply]; unfold Ideal.hostReduceAdd
  exact (hi _).add (isNN_sum _ _ fun i _ => hx i)

/-- The zero constant's entries are 0. -/
theorem isNN_constZero (k : S_.Idx) : IsNN (constant (F := Ideal) S_ .f32 0x00000000#32 k) := by
  rw [constant_apply, Cert.Attn.Consts.ofBits_zero]; exact isNN_zero

/-- The constant 64, broadcast to a column, is 64 everywhere. -/
theorem bcast64_apply (j : S64x1.Idx) :
    broadcastInDim S64x1 ![] bc__64x1 (constant (F := Ideal) S_ .f32 0x42800000#32) j = ((64 : ℝ) : EReal) := by
  rw [broadcastInDim_scalar_apply, constant_apply, Cert.Attn.Consts.ofBits_64]

/-! ## The mean, the count, the variance -/

variable (c : FVec Ideal S64x64 .f32) (gam bet : FVec Ideal S64 .f32)

theorem lnMean_real (hc : ∀ i, IsReal (c i)) (j : S64x1.Idx) : IsReal (lnMean c j) := by
  unfold lnMean
  rw [hostDivf_apply, bcast64_apply]
  refine IsReal.div_coe (broadcastInDim_of_forall IsReal _ _ _ (fun k => ?_) j) (by norm_num)
  exact isReal_hostReduceAdd c _ _ _ hc (fun k => (isNN_constZero k).isReal) k

/-- The count is 64 minus (the integer 0 as a real number): 64. -/
theorem lnCount_apply (k : S_.Idx) : lnCount k = ((64 : ℝ) : EReal) := by
  unfold lnCount
  rw [subf_apply, constant_apply, Cert.Attn.Consts.ofBits_64, sitofp_apply]
  show ((64 : ℝ) : EReal) - ((((0#32 : BitVec 32).toInt : ℤ) : ℝ) : EReal) = _
  rw [show (0#32 : BitVec 32).toInt = 0 from by decide, Int.cast_zero, EReal.coe_zero, sub_zero]

/-- The deviations from the mean are real numbers. -/
theorem dev_real (hc : ∀ i, IsReal (c i)) (i : S64x64.Idx) :
    IsReal (subf c (broadcastInDim S64x64 ![0, 1] bc_64x1_64x64 (lnMean c)) i) := by
  rw [subf_apply]
  exact (hc i).sub (broadcastInDim_of_forall IsReal _ _ _ (lnMean_real c hc) i)

/-- The variance is a real number that is not negative. -/
theorem lnVar_nn (hc : ∀ i, IsReal (c i)) (j : S64x1.Idx) : IsNN (lnVar c j) := by
  unfold lnVar
  rw [select_apply, broadcastInDim_scalar_apply, cmpf_apply, lnCount_apply, constant_apply,
    Cert.Attn.Consts.ofBits_zero]
  have hcmp : FloatOps.cmpf (F := Ideal) (φ := .f32) .ogt ((64 : ℝ) : EReal) 0 = 1#1 := by
    show Ideal.cmp .ogt ((64 : ℝ) : EReal) 0 = 1#1
    have h0 : (0 : EReal) < ((64 : ℝ) : EReal) := by exact_mod_cast (by norm_num : (0 : ℝ) < 64)
    simp [Ideal.cmp, h0]
  rw [hcmp, select_one, hostDivf_apply, broadcastInDim_scalar_apply, lnCount_apply]
  refine IsNN.div_coe (broadcastInDim_of_forall IsNN _ _ _ (fun k => ?_) j) (by norm_num)
  refine isNN_hostReduceAdd _ _ _ _ (fun i => ?_) isNN_constZero k
  rw [mulf_apply]
  exact isNN_mul_self (dev_real c hc i)

/-- The reciprocal square root of (variance + the small constant) is a real number. -/
theorem rstd_real (hc : ∀ i, IsReal (c i)) (j : S64x1.Idx) :
    IsReal (Host.rsqrt (addf (lnVar c) (broadcastInDim S64x1 ![] bc__64x1
      (constant (F := Ideal) S_ .f32 0x3727C5AC#32))) j) := by
  show IsReal (Ideal.rsqrt (addf (lnVar c) (broadcastInDim S64x1 ![] bc__64x1
      (constant (F := Ideal) S_ .f32 0x3727C5AC#32)) j))
  rw [addf_apply, broadcastInDim_scalar_apply, constant_apply, Cert.Attn.Consts.ofBits_eps]
  obtain ⟨v, hv, e⟩ := lnVar_nn c hc j
  rw [e, ← EReal.coe_add]
  exact isReal_rsqrt_pos (add_pos_of_nonneg_of_pos hv Cert.Attn.Consts.eps_pos)

/-! ## The memory rows -/

theorem memTerm_real (hc : ∀ i, IsReal (c i)) (hg : ∀ i, IsReal (gam i)) (hb : ∀ i, IsReal (bet i)) :
    ∀ i, IsReal (memTerm c gam bet i) := fun i => by
  unfold memTerm
  rw [addf_apply, mulf_apply, mulf_apply]
  refine IsReal.add (IsReal.mul (IsReal.mul (dev_real c hc i) ?_) ?_) ?_
  · exact broadcastInDim_of_forall IsReal _ _ _ (rstd_real c hc) i
  · exact broadcastInDim_of_forall IsReal _ _ _ (broadcastInDim_of_forall IsReal _ _ _ hg) i
  · exact broadcastInDim_of_forall IsReal _ _ _ (broadcastInDim_of_forall IsReal _ _ _ hb) i

end Cert.Attn.Fin

end
-- ==== Proof.SoftmaxLaw.lean ====
/-
  The one algebraic law between the two programs.

  A row of attention weights p_s = exp(score_s - max) is normalised by l = ∑ p_s. One program computes
  (∑ p_s v_s) / l, the other ∑ (p_s / l) v_s. On the extended reals a factor does not move across a sum in general,
  but it does when it is a nonnegative real number: then multiplication by it distributes over every sum. Dividing by
  a nonzero real l is multiplying by the real 1 / l, so the two agree as soon as l is a positive real number — and l is
  one when the scores are real numbers: their maximum is then one of them, each p_s is the exponential of a real number,
  positive, and l is a finite sum of positive reals.
-/
import Mathlib
import Idealize.ShloMosaic.PureOps.Ideal
import proofs.«158825_j27247272526054_2_alg».proof.Proof.AttnSpec
import proofs.«158825_j27247272526054_2_alg».proof.Proof.Consts
import proofs.«158825_j27247272526054_2_alg».proof.Proof.LibIsReal
import proofs.«158825_j27247272526054_2_alg».proof.Proof.LibRealScale

noncomputable section

namespace Cert.Attn

open Idealize.ShloMosaic Idealize.ShloMosaic.ValueIdx Cert.EdgeLoss Cert.RealScale

/-- A nonnegative real factor distributes over a finite sum of extended reals. -/
theorem sum_mul_coe_nonneg {ι : Type} (s : Finset ι) (a : ι → EReal) (c : ℝ) (hc : 0 ≤ c) :
    (∑ i ∈ s, a i) * (c : EReal) = ∑ i ∈ s, a i * (c : EReal) := by
  classical
  induction s using Finset.induction_on with
  | empty => rw [Finset.sum_empty, Finset.sum_empty, zero_mul]
  | insert i s hi ih =>
    rw [Finset.sum_insert hi, Finset.sum_insert hi, ← ih]
    exact EReal.right_distrib_of_nonneg_of_ne_top (EReal.coe_nonneg.mpr hc) (EReal.coe_ne_top c) _ _

/-- Dividing a weighted sum by a positive real is summing with each weight divided. -/
theorem div_sum_regroup {ι : Type} [Fintype ι] (p v : ι → EReal) (l : ℝ) (hl : 0 < l) :
    Ideal.div (∑ s, p s * v s) (l : EReal) = ∑ s, Ideal.div (p s) (l : EReal) * v s := by
  have hne : l ≠ 0 := ne_of_gt hl
  rw [Ideal.div_coe hne, sum_mul_coe_nonneg _ _ _ (by positivity)]
  refine Finset.sum_congr rfl fun s _ => ?_
  rw [Ideal.div_coe hne, mul_right_comm]

/-- The largest of finitely many (at least one) extended reals, taken from bottom, is one of them. -/
theorem fold_max_bot_mem {ι : Type} [DecidableEq ι] (s : Finset ι) (hs : s.Nonempty) (f : ι → EReal) :
    ∃ i ∈ s, s.fold max ⊥ f = f i := by
  induction s using Finset.induction_on with
  | empty => exact absurd hs Finset.not_nonempty_empty
  | insert a s ha ih =>
    rw [Finset.fold_insert ha]
    rcases s.eq_empty_or_nonempty with rfl | hne
    · exact ⟨a, Finset.mem_insert_self _ _, by rw [Finset.fold_empty, max_eq_left bot_le]⟩
    · obtain ⟨i, hi, h⟩ := ih hne
      rw [h]
      rcases max_choice (f a) (f i) with h' | h'
      · exact ⟨a, Finset.mem_insert_self _ _, h'⟩
      · exact ⟨i, Finset.mem_insert_of_mem hi, h'⟩

/-- The pattern of minus infinity denotes the bottom of the extended reals. -/
theorem negInf_eq : negInf = ⊥ := Consts.ofBits_negInf

/-- The pattern of 1/8 denotes a real number. -/
theorem eighth_real : IsReal eighth := ⟨_, Consts.ofBits_eighth⟩

section
variable (x : S8x2048x1024.Idx → EReal) (wq wk wv : S1024x64.Idx → EReal) (mem : S64x64.Idx → EReal)
variable (hx : ∀ i, IsReal (x i)) (hq : ∀ i, IsReal (wq i)) (hk : ∀ i, IsReal (wk i)) (hm : ∀ i, IsReal (mem i))
include hx

theorem proj_real (w : S1024x64.Idx → EReal) (hw : ∀ i, IsReal (w i)) (b : Fin 8) (t : Fin 2048) (j : Fin 64) :
    IsReal (proj x w b t j) :=
  isReal_sum _ _ fun d _ => (hx _).mul (hw _)

include hm
theorem ext_real (w : S1024x64.Idx → EReal) (hw : ∀ i, IsReal (w i)) (b : Fin 8) (s : Fin 2112) (j : Fin 64) :
    IsReal (ext x mem w b s j) := by
  unfold ext
  split
  · exact proj_real x hx w hw b _ j
  · exact hm _

include hq hk
theorem score_real (b : Fin 8) (t : Fin 2048) (s : Fin 2112) : IsReal (score x wq wk mem b t s) :=
  (isReal_sum _ _ fun j _ => (proj_real x hx wq hq b t j).mul (ext_real x mem hx hm wk hk b s j)).mul eighth_real

theorem rowMax_real (b : Fin 8) (t : Fin 2048) : IsReal (rowMax x wq wk mem b t) := by
  unfold rowMax
  rw [negInf_eq]
  obtain ⟨s, -, h⟩ := fold_max_bot_mem (Finset.univ : Finset (Fin 2112)) ⟨0, Finset.mem_univ _⟩
    (fun s => score x wq wk mem b t s)
  rw [h]
  exact score_real x wq wk mem hx hq hk hm b t s

/-- Each weight is the exponential of a real number. -/
theorem pexp_eq (b : Fin 8) (t : Fin 2048) (s : Fin 2112) :
    ∃ r : ℝ, pexp x wq wk mem b t s = ((Real.exp r : ℝ) : EReal) := by
  obtain ⟨r, hr⟩ := (score_real x wq wk mem hx hq hk hm b t s).sub (rowMax_real x wq wk mem hx hq hk hm b t)
  exact ⟨r, by unfold pexp; rw [hr]; rfl⟩

/-- The denominator is a positive real number. -/
theorem denom_pos (b : Fin 8) (t : Fin 2048) : ∃ l : ℝ, 0 < l ∧ denom x wq wk mem b t = (l : EReal) := by
  choose r hr using fun s => pexp_eq x wq wk mem hx hq hk hm b t s
  refine ⟨∑ s : Fin 2112, Real.exp (r s), Finset.sum_pos (fun s _ => Real.exp_pos _) ⟨0, Finset.mem_univ _⟩, ?_⟩
  unfold denom
  rw [coe_finset_sum]
  exact Finset.sum_congr rfl fun s _ => hr s

/-- Summing then dividing is dividing then summing, when the inputs behind the scores are real numbers. -/
theorem out_regroup (b : Fin 8) (t : Fin 2048) (j : Fin 64) :
    outSumThenDiv x wq wk wv mem b t j = outDivThenSum x wq wk wv mem b t j := by
  obtain ⟨l, hl, h⟩ := denom_pos x wq wk mem hx hq hk hm b t
  unfold outSumThenDiv outDivThenSum
  rw [h]
  exact div_sum_regroup _ _ l hl

end

end Cert.Attn

end
-- ==== Proof.lean ====
/-
  A fused attention kernel against its jnp reference, over the extended reals.

  Both programs normalise a 64 x 64 table of memory embeddings row by row (the same host operations), project the
  tokens x[8, 2048, 1024] to queries, keys and values (64 features), extend each batch's keys and values by the 64
  memory rows, score every query against the 2112 extended keys (inner product over the features, times 1/8), take
  exp(score - the row's maximum) as weights, and average the extended values with those weights.

  The kernel runs on a grid of 8 batches by 8 tiles of 256 queries: a batch's first point stores the batch's extended keys
  and values in two buffers carried across the batch's points, and every point computes
  (∑ weight · value) / (∑ weight) for its 256 rows. The reference computes ∑ (weight / ∑ weight) · value.
  Their products, sums, maxima and exponentials are the same extended reals term by term; the one difference is where the
  division by the row's denominator sits, and a factor moves across a sum of extended reals when it is a nonnegative
  real number. The denominator is a positive real number when the scores are real numbers — which is where the
  precondition enters: finite inputs are real numbers, the normalised rows are then real numbers (a variance of real
  numbers is a nonnegative real, plus a positive constant it has a real reciprocal square root), and so are the
  projections and the scores.

  The three frames: the kernel's two are its generated frame runs; the reference's is its run with the result dropped.
  The idealization rewrote nothing. The value claim: the kernel's run ends with the result array at the function G of
  the arguments (block by block, the carried buffers by induction over the grid), the reference's run ends at its own
  term, read index by index, and the two agree by the law above.
-/
import proofs.«158825_j27247272526054_2_alg».proof.Defs
import proofs.«158825_j27247272526054_2_alg».proof.Proof.Gen.Kernel
import proofs.«158825_j27247272526054_2_alg».proof.Proof.Gen.Kernel.Skeleton
import proofs.«158825_j27247272526054_2_alg».proof.Proof.Gen.Kernel.Launch
import proofs.«158825_j27247272526054_2_alg».proof.Proof.Gen.Kernel.Points
import proofs.«158825_j27247272526054_2_alg».proof.Proof.Gen.Kernel.Frame
import proofs.«158825_j27247272526054_2_alg».proof.Proof.Gen.KernelIdeal
import proofs.«158825_j27247272526054_2_alg».proof.Proof.Gen.KernelIdeal.Skeleton
import proofs.«158825_j27247272526054_2_alg».proof.Proof.Gen.KernelIdeal.Launch
import proofs.«158825_j27247272526054_2_alg».proof.Proof.Gen.KernelIdeal.Points
import proofs.«158825_j27247272526054_2_alg».proof.Proof.Gen.KernelIdeal.Frame
import proofs.«158825_j27247272526054_2_alg».proof.Proof.Gen.KernelIdeal.Value
import proofs.«158825_j27247272526054_2_alg».proof.Proof.Gen.ReferenceIdeal
import proofs.«158825_j27247272526054_2_alg».proof.Proof.Gen.Pre_finite_inputs
import proofs.«158825_j27247272526054_2_alg».proof.Proof.KernelValue
import proofs.«158825_j27247272526054_2_alg».proof.Proof.RefRun
import proofs.«158825_j27247272526054_2_alg».proof.Proof.RefRead
import proofs.«158825_j27247272526054_2_alg».proof.Proof.Finite
import proofs.«158825_j27247272526054_2_alg».proof.Proof.MemReal
import proofs.«158825_j27247272526054_2_alg».proof.Proof.SoftmaxLaw
import Idealize.ShloMosaic.Adequacy
import Idealize.ShloMosaic.Init

noncomputable section

namespace Cert.Proof

open Idealize.ShloMosaic Idealize.ShloMosaic.TcCoe Idealize.SL.Sem Idealize.ShloMosaic.ValueIdx

theorem frame_p : Cert.frame_Kernel := fun m ρ _ => Cert.Kernel.Gen.frame m ρ

theorem frame_pi : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.Attn.Ref.run m ρ)

/-- The two runs end with equal results: the kernel's array is 'sum then divide', the reference's term 'divide then
    sum', of arguments that agree and, by the precondition, are real numbers. -/
theorem algebraic : Cert.algebraic_KernelIdeal_ReferenceIdeal := by
  intro m ρ m' ρ' hpre hagree
  refine ⟨fun c => Cert.Attn.Ker.G m c, Cert.Attn.Ker.run m ρ, ?_⟩
  refine (θ_run Cert.ReferenceIdeal.defs _ _).mono (fun _ h c => ⟨(h c).1.trans ?_, (h c).2⟩)
    (Cert.Attn.Ref.run m' ρ')
  obtain ⟨a0, a1, a2, a3, a4, a5, a6⟩ := hagree c
  rw [a0, a1, a2, a3, a4, a5, a6]
  funext i
  obtain ⟨b, t, j, rfl⟩ : ∃ (b : Fin 8) (t : Fin 2048) (j : Fin 64), i = ix3 b t j := ⟨i 0, i 1, i 2, eq_ix3 i⟩
  rw [Cert.Attn.Ref.refTerm_apply]
  show _ = Cert.Attn.Ker.G m c (ix3 b t j)
  rw [Cert.Attn.Ker.G_eq]
  obtain ⟨h0, h1, h2, h3, h4, h5, h6⟩ := Cert.Attn.Fin.real_of_fn _ _ _ _ _ _ _ (hpre c)
  exact (Cert.Attn.out_regroup _ _ _ _ _ h0 h2 h3 (Cert.Attn.Fin.memTerm_real _ _ _ h1 h5 h6) b t j).symm

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
